-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x128x8 : Shape := ⟨3, ![1024, 128, 8]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x128x8 : S_.BroadcastsInDim S1024x128x8 (![] : Fin 0 → Fin S1024x128x8.rank)
  reducesTo_S1024x128x8_S_d0_1_2 : S1024x128x8.ReducesTo [0, 1, 2] S_

variable [Facts]

def fn {F : FTy → Type} [FloatOps F] (main_arg0 : FVec F S256x1024 .f32) (main_arg1 : FVec F S1024x128x8 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x128x8 .f32 := Host.absf main_arg1
  let main_cst_0 : FVec F S_ .f32 := constant S_ .f32 0x7F800000#32
  let main_v5 : FVec F S1024x128x8 .f32 := broadcastInDim S1024x128x8 ![] bcast_S_S1024x128x8 main_cst_0
  let main_v6 : IVec S1024x128x8 1 := cmpf .olt main_v4 main_v5
  let main_c_1 : IVec S_ 1 := constantI S_ 1 1#1
  let main_v7 : IVec S_ 1 := (fun x v => Host.reduce IntOp.andi x v reducesTo_S1024x128x8_S_d0_1_2 h_S_) main_v6 main_c_1
  let main_v8 : IVec S_ 1 := andi main_v3 main_v7
  main_v8
-- ==== Kernel.lean ====
abbrev S256x1024 : Shape := ⟨2, ![256, 1024]⟩
abbrev S1024x128x8 : Shape := ⟨3, ![1024, 128, 8]⟩
abbrev S1024x8x128 : Shape := ⟨3, ![1024, 8, 128]⟩
abbrev S1024x1024 : Shape := ⟨2, ![1024, 1024]⟩
abbrev S256x8x128 : Shape := ⟨3, ![256, 8, 128]⟩
abbrev S256x1152 : Shape := ⟨2, ![256, 1152]⟩
abbrev S128x8x128 : Shape := ⟨3, ![128, 8, 128]⟩
abbrev S128x1024 : Shape := ⟨2, ![128, 1024]⟩
abbrev S128x1152 : Shape := ⟨2, ![128, 1152]⟩
abbrev S128x128 : Shape := ⟨2, ![128, 128]⟩
abbrev S16x8x128 : Shape := ⟨3, ![16, 8, 128]⟩
abbrev S128x16x128 : Shape := ⟨3, ![128, 16, 128]⟩
abbrev S128x1x128 : Shape := ⟨3, ![128, 1, 128]⟩
abbrev S16x1x128 : Shape := ⟨3, ![16, 1, 128]⟩
abbrev S16x128 : Shape := ⟨2, ![16, 128]⟩
abbrev S1x16x128 : Shape := ⟨3, ![1, 16, 128]⟩

abbrev nBuf : Space → Nat
  | .hbm => 7
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1024x128x8, .f32⟩
  | .hbm, ⟨2, _⟩ => ⟨S1024x8x128, .f32⟩
  | .hbm, ⟨3, _⟩ => ⟨S1024x1024, .f32⟩
  | .hbm, ⟨4, _⟩ => ⟨S256x1024, .f32⟩
  | .hbm, ⟨5, _⟩ => ⟨S256x8x128, .f32⟩
  | .hbm, ⟨6, _⟩ => ⟨S256x1152, .f32⟩
  | .local _ .vmem, ⟨0, _⟩ => ⟨S256x1024, .f32⟩
  | .local _ .vmem, ⟨1, _⟩ => ⟨S1024x1024, .f32⟩
  | .local _ .vmem, ⟨2, _⟩ => ⟨S256x1024, .f32⟩
  | .local _ .vmem, ⟨3, _⟩ => ⟨S128x8x128, .f32⟩
  | .local _ .vmem, ⟨4, _⟩ => ⟨S128x8x128, .f32⟩
  | .local _ .vmem, ⟨5, _⟩ => ⟨S128x8x128, .f32⟩
  | .local _ .vmem, ⟨6, _⟩ => ⟨S128x8x128, .f32⟩
  | .local _ .vmem, ⟨7, _⟩ => ⟨S128x1024, .f32⟩
  | .local _ .vmem, ⟨8, _⟩ => ⟨S128x1024, .f32⟩
  | .local _ .vmem, ⟨9, _⟩ => ⟨S128x1152, .f32⟩
  | .local _ .vmem, ⟨10, _⟩ => ⟨S128x1152, .f32⟩
  | .local _ .vmem, ⟨11, _⟩ => ⟨S128x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 2], ![false, false]⟩

def k1_mult1 : BitVec 32 :=
  let c0_i32_3 : BitVec 32 := 0#32
  let c16_i32 : BitVec 32 := 16#32
  let v7 : BitVec 32 := Scalar.muli c0_i32_3 c16_i32
  v7
def k1_off1 (c0_i32_3 : BitVec 32) : Fin 3 → Nat :=
  let c16_i32 : BitVec 32 := 16#32
  let v7 : BitVec 32 := Scalar.muli c0_i32_3 c16_i32
  let v8 : BitVec 32 := v7
  let v9 : Index := Scalar.indexCast v8
  let c0_4 : Index := 0#32
  let c0_5 : Index := 0#32
  ![v9.toNat, 0, 0]
def k1_mult2 : BitVec 32 :=
  let c1_i32 : BitVec 32 := 1#32
  let c16_i32_9 : BitVec 32 := 16#32
  let v115 : BitVec 32 := Scalar.muli c1_i32 c16_i32_9
  v115
def k1_mult3 : BitVec 32 :=
  let c2_i32 : BitVec 32 := 2#32
  let c16_i32_15 : BitVec 32 := 16#32
  let v223 : BitVec 32 := Scalar.muli c2_i32 c16_i32_15
  v223
def k1_mult4 : BitVec 32 :=
  let c3_i32 : BitVec 32 := 3#32
  let c16_i32_21 : BitVec 32 := 16#32
  let v331 : BitVec 32 := Scalar.muli c3_i32 c16_i32_21
  v331
def k1_mult5 : BitVec 32 :=
  let c4_i32 : BitVec 32 := 4#32
  let c16_i32_27 : BitVec 32 := 16#32
  let v439 : BitVec 32 := Scalar.muli c4_i32 c16_i32_27
  v439
def k1_mult6 : BitVec 32 :=
  let c5_i32 : BitVec 32 := 5#32
  let c16_i32_33 : BitVec 32 := 16#32
  let v547 : BitVec 32 := Scalar.muli c5_i32 c16_i32_33
  v547
def k1_mult7 : BitVec 32 :=
  let c6_i32 : BitVec 32 := 6#32
  let c16_i32_39 : BitVec 32 := 16#32
  let v655 : BitVec 32 := Scalar.muli c6_i32 c16_i32_39
  v655
def k1_mult8 : BitVec 32 :=
  let c7_i32 : BitVec 32 := 7#32
  let c16_i32_45 : BitVec 32 := 16#32
  let v763 : BitVec 32 := Scalar.muli c7_i32 c16_i32_45
  v763
def k1_cond2 (i : grid1.Coords) : BitVec 1 :=
  let arg1 : BitVec 32 := BitVec.ofNat 32 (i 1).val
  let c1_i32_55 : BitVec 32 := 1#32
  let v876 : BitVec 1 := Scalar.cmpi .eq arg1 c1_i32_55
  let v877 : BitVec 32 := Scalar.extui v876
  let c0_i32_56 : BitVec 32 := 0#32
  let v878 : BitVec 1 := Scalar.cmpi .ne v877 c0_i32_56
  v878

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x1152 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S1024x128x8_S1024x8x128_0_2_1 : S1024x128x8.Transposes [0, 2, 1] S1024x8x128
  shapeCasts_S1024x8x128_S1024x1024 : S1024x8x128.ShapeCasts S1024x1024
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x8x128 : S256x1024.ShapeCasts S256x8x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x8x128_S128x8x128_0_0_0 : ∀ a, (![0, 0, 0] : Fin 3 → Nat) a + S128x8x128.size a ≤ S128x8x128.size a
  h_S128x8x128 : 0 < S128x8x128.numel
  shapeCasts_S128x8x128_S128x8x128 : S128x8x128.ShapeCasts S128x8x128
  h_S16x8x128 : 0 < S16x8x128.numel
  shapeCasts_S16x8x128_S16x8x128 : S16x8x128.ShapeCasts S16x8x128
  slices_S128x8x128_o0_0_0_S128x1x128 : S128x8x128.Slices ![0, 0, 0] S128x1x128
  shapeCasts_S128x1x128_S128x128 : S128x1x128.ShapeCasts S128x128
  slices_S16x8x128_o0_0_0_S16x1x128 : S16x8x128.Slices ![0, 0, 0] S16x1x128
  shapeCasts_S16x1x128_S16x128 : S16x1x128.ShapeCasts S16x128
  shapeCasts_S128x128_S128x1x128 : S128x128.ShapeCasts S128x1x128
  shapeCasts_S16x128_S1x16x128 : S16x128.ShapeCasts S1x16x128
  broadcasts_S128x1x128_S128x16x128 : S128x1x128.Broadcasts S128x16x128
  broadcasts_S1x16x128_S128x16x128 : S1x16x128.Broadcasts S128x16x128
  slices_S128x8x128_o0_1_0_S128x1x128 : S128x8x128.Slices ![0, 1, 0] S128x1x128
  slices_S16x8x128_o0_1_0_S16x1x128 : S16x8x128.Slices ![0, 1, 0] S16x1x128
  slices_S128x8x128_o0_2_0_S128x1x128 : S128x8x128.Slices ![0, 2, 0] S128x1x128
  slices_S16x8x128_o0_2_0_S16x1x128 : S16x8x128.Slices ![0, 2, 0] S16x1x128
  slices_S128x8x128_o0_3_0_S128x1x128 : S128x8x128.Slices ![0, 3, 0] S128x1x128
  slices_S16x8x128_o0_3_0_S16x1x128 : S16x8x128.Slices ![0, 3, 0] S16x1x128
  slices_S128x8x128_o0_4_0_S128x1x128 : S128x8x128.Slices ![0, 4, 0] S128x1x128
  slices_S16x8x128_o0_4_0_S16x1x128 : S16x8x128.Slices ![0, 4, 0] S16x1x128
  slices_S128x8x128_o0_5_0_S128x1x128 : S128x8x128.Slices ![0, 5, 0] S128x1x128
  slices_S16x8x128_o0_5_0_S16x1x128 : S16x8x128.Slices ![0, 5, 0] S16x1x128
  slices_S128x8x128_o0_6_0_S128x1x128 : S128x8x128.Slices ![0, 6, 0] S128x1x128
  slices_S16x8x128_o0_6_0_S16x1x128 : S16x8x128.Slices ![0, 6, 0] S16x1x128
  slices_S128x8x128_o0_7_0_S128x1x128 : S128x8x128.Slices ![0, 7, 0] S128x1x128
  slices_S16x8x128_o0_7_0_S16x1x128 : S16x8x128.Slices ![0, 7, 0] S16x1x128
  reduces_S128x16x128_S128x128 : S128x16x128.Reduces [1] S128x128
  inb_S128x1024_S128x1024_0_0 : ∀ a, (![0, 0] : Fin 2 → Nat) a + S128x1024.size a ≤ S128x1024.size a
  h_S128x1024 : 0 < S128x1024.numel
  inb_S128x1152_S128x1024_0_0 : ∀ a, (![0, 0] : Fin 2 → Nat) a + S128x1024.size a ≤ S128x1152.size a
  inb_S128x1152_S128x128_0_1024 : ∀ a, (![0, 1024] : Fin 2 → Nat) a + S128x128.size a ≤ S128x1152.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hrank1 : 0 < grid1.rank
  k1_mult1_dvd : 16 ∣ k1_mult1.toNat
  k1_off1_inb : ∀ (r : Fin 8), ∀ a, (k1_off1 (BitVec.ofNat 32 r.val)) a + S16x8x128.size a ≤ S128x8x128.size a
  k1_mult2_dvd : 16 ∣ k1_mult2.toNat
  k1_mult3_dvd : 16 ∣ k1_mult3.toNat
  k1_mult4_dvd : 16 ∣ k1_mult4.toNat
  k1_mult5_dvd : 16 ∣ k1_mult5.toNat
  k1_mult6_dvd : 16 ∣ k1_mult6.toNat
  k1_mult7_dvd : 16 ∣ k1_mult7.toNat
  k1_mult8_dvd : 16 ∣ k1_mult8.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8x128.size a ≤ S256x8x128.size a
  hwx1_0 : ∀ i : grid1.Coords, EltTy.bits .f32 = 32 ∨ (Rect.block (s := S256x8x128) S128x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8x128.size a ≤ S256x8x128.size a
  hwx1_1 : ∀ i : grid1.Coords, EltTy.bits .f32 = 32 ∨ (Rect.block (s := S256x8x128) S128x8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S256x1024.size a
  hwx1_2 : ∀ i : grid1.Coords, EltTy.bits .f32 = 32 ∨ (Rect.block (s := S256x1024) S128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1152.size a ≤ S256x1152.size a
  hwx1_3 : ∀ i : grid1.Coords, EltTy.bits .f32 = 32 ∨ (Rect.block (s := S256x1152) S128x1152.size (cc1_transform_3 i) (hinb1_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S128x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x1152.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S256x1024 : Shape := ⟨2, ![256, 1024]⟩
abbrev S1024x128x8 : Shape := ⟨3, ![1024, 128, 8]⟩
abbrev S1024x1024 : Shape := ⟨2, ![1024, 1024]⟩
abbrev S256x128x8 : Shape := ⟨3, ![256, 128, 8]⟩
abbrev S1x256x128x8 : Shape := ⟨4, ![1, 256, 128, 8]⟩
abbrev S256x1x128x8 : Shape := ⟨4, ![256, 1, 128, 8]⟩
abbrev S256x256x128x8 : Shape := ⟨4, ![256, 256, 128, 8]⟩
abbrev S_ : Shape := ⟨0, ![]⟩
abbrev S256x256x128 : Shape := ⟨3, ![256, 256, 128]⟩
abbrev S256x128 : Shape := ⟨2, ![256, 128]⟩
abbrev S256x1152 : Shape := ⟨2, ![256, 1152]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x128x8, .f32⟩
  | .hbm, ⟨2, _⟩ => ⟨S1024x1024, .f32⟩
  | .hbm, ⟨3, _⟩ => ⟨S256x1024, .f32⟩
  | .hbm, ⟨4, _⟩ => ⟨S256x128x8, .f32⟩
  | .hbm, ⟨5, _⟩ => ⟨S1x256x128x8, .f32⟩
  | .hbm, ⟨6, _⟩ => ⟨S256x1x128x8, .f32⟩
  | .hbm, ⟨7, _⟩ => ⟨S256x256x128x8, .f32⟩
  | .hbm, ⟨8, _⟩ => ⟨S256x256x128x8, .f32⟩
  | .hbm, ⟨9, _⟩ => ⟨S256x256x128x8, .f32⟩
  | .hbm, ⟨10, _⟩ => ⟨S256x256x128x8, .f32⟩
  | .hbm, ⟨11, _⟩ => ⟨S_, .f32⟩
  | .hbm, ⟨12, _⟩ => ⟨S256x256x128, .f32⟩
  | .hbm, ⟨13, _⟩ => ⟨S256x256x128, .f32⟩
  | .hbm, ⟨14, _⟩ => ⟨S256x256x128, .f32⟩
  | .hbm, ⟨15, _⟩ => ⟨S_, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S256x1152, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S1024x128x8_S1024x1024 : S1024x128x8.ShapeCasts S1024x1024
  shapeCasts_S256x1024_S256x128x8 : S256x1024.ShapeCasts S256x128x8
  bcast_S256x128x8_S1x256x128x8_1_2_3 : S256x128x8.BroadcastsInDim S1x256x128x8 (![1, 2, 3] : Fin 3 → Fin S1x256x128x8.rank)
  bcast_S256x128x8_S256x1x128x8_0_2_3 : S256x128x8.BroadcastsInDim S256x1x128x8 (![0, 2, 3] : Fin 3 → Fin S256x1x128x8.rank)
  bcast_S1x256x128x8_S256x256x128x8_0_1_2_3 : S1x256x128x8.BroadcastsInDim S256x256x128x8 (![0, 1, 2, 3] : Fin 4 → Fin S256x256x128x8.rank)
  bcast_S256x1x128x8_S256x256x128x8_0_1_2_3 : S256x1x128x8.BroadcastsInDim S256x256x128x8 (![0, 1, 2, 3] : Fin 4 → Fin S256x256x128x8.rank)
  reducesTo_S256x256x128x8_S256x256x128_d3 : S256x256x128x8.ReducesTo [3] S256x256x128
  h_S_ : 0 < S_.numel
  reducesTo_S256x256x128_S256x128_d1 : S256x256x128.ReducesTo [1] S256x128
  bcast_S_S256x128 : S_.BroadcastsInDim S256x128 (![] : Fin 0 → Fin S256x128.rank)
  concatenates_S256x1024_S256x128_S256x1152_d1 : Shape.Concatenates [S256x1024, S256x128] S256x1152 1
  dot_S256x1024_S1024x1024_S256x1024_1_0_0_1_n_n_wf : DotDims.WF S256x1024 S1024x1024 S256x1024 [1] [0] [0] [1] [] []

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

class Facts : Prop extends Facts₀ where

variable [Facts]
-- ==== Proof.K.Body0.lean ====
/-
  The first region: one grid point, the two operands fetched whole, the product stored whole.  After the body the
  output buffer holds the product payload of the two input blocks; the region's invariant is the plain one.
-/
import proofs.«106793_j66391604461943_2_alg».proof.Proof.Gen.Kernel.Launch
import proofs.«106793_j66391604461943_2_alg».proof.Proof.Gen.Kernel.Skeleton
import proofs.«106793_j66391604461943_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's accesses and what it leaves -/

abbrev r0_0 : Rect S256x1024 := Rect.unit (s := S256x1024) ![0, 0] S256x1024.size inb_S256x1024_S256x1024_0_0
abbrev r0_1 : Rect S1024x1024 := Rect.unit (s := S1024x1024) ![0, 0] S1024x1024.size inb_S1024x1024_S1024x1024_0_0

/-- The output buffer after the body: its one store, of the product payload of the two loaded blocks. -/
def out0_2 (x0 : Vec F S256x1024 .f32) (x1 : Vec F S1024x1024 .f32) : Vec F S256x1024 .f32 :=
  View.canon [⟨r0_0, k0_pay1 (View.ld x0 r0_0) (View.ld x1 r0_1)⟩]

/-- The one store covers the buffer. -/
theorem cover0_2 (p0 : Vec F S256x1024 .f32) (y : S256x1024.Idx) :
    ∃ pc ∈ ([⟨r0_0, p0⟩] : List (View.Piece (Elt F) S256x1024 .f32)), y ∈ pc.1.set :=
  View.cover_of_tiledL [⟨r0_0, p0⟩] S256x1024.size (by sl_kernel_rfl) y

set_option maxHeartbeats 1000000 in
/-- The body on whole staging memrefs, the inputs' at contents `x0`, `x1` and the output's at anything, runs to the
    continuation holding the inputs as they were and the output's at `out0_2 x0 x1`. -/
theorem sound_kernel0 (c : Dev nD) (E : Set ℕ) (i : grid0.Coords) (arg1 : Memref sig .tc .vmem S256x1024 .f32) (harg1 : arg1.IsWhole)
    (arg2 : Memref sig .tc .vmem S1024x1024 .f32) (harg2 : arg2.IsWhole) (arg3 : Memref sig .tc .vmem S256x1024 .f32) (harg3 : arg3.IsWhole)
    (x0 : Vec F S256x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

section
variable (V : (c : Dev nD) → (b : Ref sig .tc) → Buf (Elt F) ((c : Thread nD τ).loc b))

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Runs1.lean ====
/-
  The pairwise kernel (the second region) on its 2×2 grid: what its two branch conditions are at a grid
  point, where its output window is idle, the staging and scratch memrefs it is called with, and the region's
  invariant with the scratch accumulator spelt out.  A point is (i, j): i the block of query rows, j the block
  of key rows; the body clears the accumulator when j = 0 and writes the output block when j = 1 (the last j).
-/
import proofs.«106793_j66391604461943_2_alg».proof.Proof.Gen.Kernel.Launch
import proofs.«106793_j66391604461943_2_alg».proof.Proof.Gen.Kernel.Skeleton
import proofs.«106793_j66391604461943_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "j = 0": the body clears the accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- "j = 1": the body writes the output block. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where j = 0 the body stores nothing into the output window, and the pipeline does not write it back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- Where j = 1 it stores the whole block. -/
theorem liveAt1_3_B : ∀ t : Fin cfg1.N, ¬cond1_0 (grid1.coords t) → cond1_1 (grid1.coords t) → cfg1.idle 3 (grid1.coords t) = false := by decide +kernel

/-! ## The memrefs the body is called with -/

abbrev VO1_3 : View sig .tc .vmem S128x1152 .f32 := (Memref.whole cc1_stg3_0 : Memref sig .tc .vmem S128x1152 .f32).view
abbrev ms1_0 (t : Fin cfg1.N) : Memref sig .tc .vmem S128x8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1152 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S128x128 .f32 := Memref.whole cc1_scratch0
abbrev VS1_0 : View sig .tc .vmem S128x128 .f32 := scM1_0.view

/-- The first region's three staging buffers, which the second region never touches, each at some contents. -/
abbrev otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The region's plain invariant (every scoped buffer that is no staging buffer of this region at some contents, and
    the generator register) with the accumulator as a memref owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.Run1A.lean ====
/-
  The pairwise kernel's body at a grid point with j = 0, run once on whole staging memrefs: the accumulator is
  cleared and then the point's key block is added to it; the output window is left as it was found.  The pieces
  the accumulator ends with are the witness the run finds.
-/
import proofs.«106793_j66391604461943_2_alg».proof.Proof.K.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With the three input blocks at contents `x0`, `x1`, `x2`, the output buffer at `xi3` (handed back untouched) and the
    accumulator at anything, the body runs to the continuation holding the inputs and the output buffer as they were
    and the accumulator with the pieces `LS0` written. -/
noncomputable def kernelRun1_A (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : cond1_0 i) (hc1 : ¬cond1_1 i)
    (x0 : Vec F S128x8x128 .f32) (x1 : Vec F S128x8x128 .f32) (x2 : Vec F S128x1024 .f32) :
    Σ' (L3 : List (View.Piece (Elt F) S128x1152 .f32)), { LS0 : List (View.Piece (Elt F) S128x128 .f32) //
      ∀ (xi3 : Vec F S128x1152 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__pairwise_kernel i arg2 harg2 arg3 harg3 arg4 harg4 arg5 harg5 arg6 harg6) K } := by
  refine ⟨[], ?_, fun xi3 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Run1B.lean ====
/-
  The pairwise kernel's body at a grid point with j = 1 (the last key block), run once on whole staging memrefs:
  the point's key block is added to the accumulator the point before left, and the output block is written — the
  sample rows into its first 1024 columns, the accumulator minus one into its last 128.  The pieces the output
  buffer and the accumulator end with are the witness the run finds.
-/
import proofs.«106793_j66391604461943_2_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With the three input blocks at contents `x0`, `x1`, `x2`, the output buffer at anything and the accumulator at
    `xs0`, the body runs to the continuation holding the inputs as they were, the output buffer with the pieces `L3`
    written and the accumulator with the pieces `LS0` written. -/
noncomputable def kernelRun1_B (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) :
    Σ' (L3 : List (View.Piece (Elt F) S128x1152 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__pairwise_kernel i arg2 harg2 arg3 harg3 arg4 harg4 arg5 harg5 arg6 harg6) K } := by
  refine ⟨?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Body1.lean ====
/-
  The second region's proof data.  Its grid point t = 2·i + j handles query block i against key block j.  After
  a point with j = 0 the accumulator holds the cleared accumulator plus key block 0's contribution and the output
  buffer is untouched; after a point with j = 1 the accumulator has key block 1's contribution added and the output
  buffer holds the finished block.  The region's invariant carries the accumulator between points; the three
  inputs' buffers hold their blocks at every point, whether fetched there or not.
-/
import proofs.«106793_j66391604461943_2_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves -/

/-- With j = 0 the body stores nothing into the output buffer: a placeholder nothing consults. -/
def out1_A_3 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : cond1_0 i) (hc1 : ¬cond1_1 i)
    (x0 : Vec F S128x8x128 .f32) (x1 : Vec F S128x8x128 .f32) (x2 : Vec F S128x1024 .f32) : Vec F S128x1152 .f32 :=
  VO1_3.read (Elt F) (VO1_3.writes (Elt F) VO1_3.junk (kernelRun1_A c i arg2 harg2 arg3 harg3 arg4 harg4 arg5 harg5 arg6 harg6 hc0 hc1 x0 x1 x2).1)

/-- With j = 0 the accumulator's pieces (the clearing store and the final store) cover it. -/
theorem scover1_A_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : cond1_0 i) (hc1 : ¬cond1_1 i)
    (x0 : Vec F S128x8x128 .f32) (x1 : Vec F S128x8x128 .f32) (x2 : Vec F S128x1024 .f32) (y : S128x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S128x128.size (by sl_kernel_rfl) y

/-- What the accumulator holds after a point with j = 0. -/
def sout1_A_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : cond1_0 i) (hc1 : ¬cond1_1 i)
    (x0 : Vec F S128x8x128 .f32) (x1 : Vec F S128x8x128 .f32) (x2 : Vec F S128x1024 .f32) : Vec F S128x128 .f32 :=
  VS1_0.read (Elt F) (VS1_0.writes (Elt F) VS1_0.junk (kernelRun1_A c i arg2 harg2 arg3 harg3 arg4 harg4 arg5 harg5 arg6 harg6 hc0 hc1 x0 x1 x2).2.1)

/-- With j = 1 the two stores into the output buffer (its first 1024 columns, its last 128), cut into 128 × 128 squares, tile it. -/
theorem cover1_B_3 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) (y : S128x1152.Idx) :
    ∃ pc ∈ (kernelRun1_B c i arg2 harg2 arg3 harg3 arg4 harg4 arg5 harg5 arg6 harg6 hc0 hc1 x0 x1 x2 xs0).1, y ∈ pc.1.set :=
  View.cover_of_tiledBy (kernelRun1_B c i arg2 harg2 arg3 harg3 arg4 harg4 arg5 harg5 arg6 harg6 hc0 hc1 x0 x1 x2 xs0).1 ![128, 128] (by sl_kernel_rfl) y

/-- What the output buffer holds after a point with j = 1. -/
def out1_B_3 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) : Vec F S128x1152 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) (y : S128x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S128x128.size (by sl_kernel_rfl) y

/-- What the accumulator holds after a point with j = 1. -/
def sout1_B_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) : Vec F S128x128 .f32 :=
  VS1_0.read (Elt F) (VS1_0.writes (Elt F) VS1_0.junk (kernelRun1_B c i arg2 harg2 arg3 harg3 arg4 harg4 arg5 harg5 arg6 harg6 hc0 hc1 x0 x1 x2 xs0).2.1)

section
variable (V : (c : Dev nD) → (b : Ref sig .tc) → Buf (Elt F) ((c : Thread nD τ).loc b))

theorem hA_of_even (t : Fin cfg1.N) (h0 : t.val % 2 = 0) : cond1_0 (grid1.coords t) ∧ ¬cond1_1 (grid1.coords t) :=
  ⟨(hcond1_0 t).mpr h0, fun h => by have := (hcond1_1 t).mp h; omega⟩
theorem hB_of_odd (t : Fin cfg1.N) (h0 : ¬t.val % 2 = 0) : ¬cond1_0 (grid1.coords t) ∧ cond1_1 (grid1.coords t) :=
  ⟨fun h => h0 ((hcond1_0 t).mp h), (hcond1_1 t).mpr (by omega)⟩

/-! ## What the output buffer and the accumulator hold after each point -/

/-- After the body at position `n`: (the output buffer, the accumulator).  An even position is a point with j = 0,
    an odd one a point with j = 1, which finds the accumulator the position before left. -/
def outsAt1 (c : Dev nD) : (n : ℕ) → n < cfg1.N → Vec F S128x1152 .f32 × Vec F S128x128 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (hA_of_even ⟨0, hn⟩ (Nat.zero_mod _)).1 (hA_of_even ⟨0, hn⟩ (Nat.zero_mod _)).2 (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (hA_of_even ⟨0, hn⟩ (Nat.zero_mod _)).1 (hA_of_even ⟨0, hn⟩ (Nat.zero_mod _)).2 (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (hA_of_even ⟨n + 1, hn⟩ h0).1 (hA_of_even ⟨n + 1, hn⟩ h0).2 (iblk1 V c 0 ⟨n + 1, hn⟩) (iblk1 V c 1 ⟨n + 1, hn⟩) (iblk1 V c 2 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (hA_of_even ⟨n + 1, hn⟩ h0).1 (hA_of_even ⟨n + 1, hn⟩ h0).2 (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (hB_of_odd ⟨n + 1, hn⟩ h0).1 (hB_of_odd ⟨n + 1, hn⟩ h0).2 (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (hB_of_odd ⟨n + 1, hn⟩ h0).1 (hB_of_odd ⟨n + 1, hn⟩ h0).2 (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 2 = 0) :
    outsAt1 V c t.val t.isLt =
      (out1_A_3 c (grid1.coords t) (ms1_0 t) (hs1_0 t) (ms1_1 t) (hs1_1 t) (ms1_2 t) (hs1_2 t) (ms1_3 t) (hs1_3 t) scM1_0 (Memref.isWhole_whole _) (hA_of_even t h0).1 (hA_of_even t h0).2 (iblk1 V c 0 t) (iblk1 V c 1 t) (iblk1 V c 2 t),
       sout1_A_0 c (grid1.coords t) (ms1_0 t) (hs1_0 t) (ms1_1 t) (hs1_1 t) (ms1_2 t) (hs1_2 t) (ms1_3 t) (hs1_3 t) scM1_0 (Memref.isWhole_whole _) (hA_of_even t h0).1 (hA_of_even t h0).2 (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt =
      (out1_B_3 c (grid1.coords t) (ms1_0 t) (hs1_0 t) (ms1_1 t) (hs1_1 t) (ms1_2 t) (hs1_2 t) (ms1_3 t) (hs1_3 t) scM1_0 (Memref.isWhole_whole _) (hB_of_odd t h0).1 (hB_of_odd t h0).2 (iblk1 V c 0 t) (iblk1 V c 1 t) (iblk1 V c 2 t) (outsAt1 V c (t.val - 1) (Nat.lt_of_le_of_lt (Nat.sub_le _ _) t.isLt)).2,
       sout1_B_0 c (grid1.coords t) (ms1_0 t) (hs1_0 t) (ms1_1 t) (hs1_1 t) (ms1_2 t) (hs1_2 t) (ms1_3 t) (hs1_3 t) scM1_0 (Memref.isWhole_whole _) (hB_of_odd t h0).1 (hB_of_odd t h0).2 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The invariant carrying the accumulator -/

/-- Before position `n`: at the first point the region's plain invariant (the accumulator at anything); afterwards
    the accumulator at what the position before left, the first region's staging buffers at anything, and the
    generator register at some state. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the region finds them; after the body each input's buffer at its block and the output's at
    `outsAt1`; the invariant carrying the accumulator; the array the two first windows share held half by each;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => PosShare.left fullShare
    | ⟨1, _⟩ => PosShare.right fullShare
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the parity of the position says whether j = 0 or
    j = 1; the invariant hands the body the accumulator (at anything at the first point, else at what the position
    before left) and takes it back at this position's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · rw [Dat.leavesExact_idle (dat1 V c) 3 t (idleAt1_3_A t (hA_of_even t h0).1 (hA_of_even t h0).2) (noFlush1_3_A t (hA_of_even t h0).1 (hA_of_even t h0).2)]
    rw [outsAt1_A V c t h0]
    unfold sout1_A_0; (try dsimp only)
    by_cases hz : t.val = 0
    · rw [PhiS_castSucc V c t, PhiS_zero V c _ _ hz, PhiA1_eq]
      iintro ⟨⟨⟨Ha, Hb, Hc, HS0⟩, Hg⟩, Ho, ⟨%d0, H0⟩, ⟨%d1, H1⟩, ⟨%d2, H2⟩, ⟨%d3, H3⟩⟩
      iapply ((kernelRun1_A c (grid1.coords t) _ _ _ _ _ _ _ _ _ _ (hA_of_even t h0).1 (hA_of_even t h0).2 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ha, Hb, Hc, HS0⟩, Hg⟩, Ho, ⟨%d0, H0⟩, ⟨%d1, H1⟩, ⟨%d2, H2⟩, ⟨%d3, H3⟩⟩
      iapply ((kernelRun1_A c (grid1.coords t) _ _ _ _ _ _ _ _ _ _ (hA_of_even t h0).1 (hA_of_even t h0).2 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · rw [show (dat1 V c).leavesExact 3 t = owns (c : Thread nD τ) (ms1_3 t) fullShare ((dat1 V c).after 3 t) from by
      unfold Dat.leavesExact; rw [liveAt1_3_B t (hB_of_odd t h0).1 (hB_of_odd t h0).2], after1_3]
    rw [outsAt1_B V c t h0]
    unfold out1_B_3 sout1_B_0; (try dsimp only)
    have hz : t.val ≠ 0 := fun e => h0 (by rw [e])
    rw [PhiS_castSucc V c t, PhiS_pos V c _ _ hz]
    iintro ⟨⟨⟨Ha, Hb, Hc, HS0⟩, Hg⟩, Ho, ⟨%d0, H0⟩, ⟨%d1, H1⟩, ⟨%d2, H2⟩, ⟨%d3, H3⟩⟩
    iapply ((kernelRun1_B c (grid1.coords t) _ _ _ _ _ _ _ _ _ _ (hB_of_odd t h0).1 (hB_of_odd t h0).2 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [Ha Hb Hc HS0 Hg]
    · isplitl [Ha Hb Hc HS0]
      · isplitl [Ha]; · iexact Ha
        isplitl [Hb]; · iexact Hb
        isplitl [Hc]; · iexact Hc
        unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- The region's plain invariant is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 4 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ha, Hb, Hc, HS0⟩, Hg⟩
  isplitl [Ha Hb Hc HS0]
  · isplitl [Ha]; · iexact Ha
    isplitl [Hb]; · iexact Hb
    isplitl [Hc]; · iexact Hc
    iexists _; iexact HS0
  iexact Hg

end

end Cert.Kernel.Hand

end
-- ==== Proof.K.Shared1.lean ====
/-
  The second region hands ONE array (the projected samples) to the kernel through two windows — the query block
  and the key block — beside the sample array and the result array.  Its three distinct buffers, each held whole,
  are the four windows' arrays as the proof data holds them: the shared array's full share is dealt in two halves,
  one to each window on it.
-/
import proofs.«106793_j66391604461943_2_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs)

/-- The distinct buffers behind the region's four windows. -/
theorem arrImage1 : (Finset.univ.image (arrRef spec1) : Finset (Ref sig .tc)) = [main_v3, main_arg0, main_v4].toFinset := by decide

section
variable (V : (c : Dev nD) → (b : Ref sig .tc) → Buf (Elt F) ((c : Thread nD τ).loc b))

theorem share1_0 (c : Dev nD) : (dat1 V c).share 0 = PosShare.left fullShare := rfl
theorem share1_1 (c : Dev nD) : (dat1 V c).share 1 = PosShare.right fullShare := rfl
theorem share1_2 (c : Dev nD) : (dat1 V c).share 2 = fullShare := rfl
theorem share1_3 (c : Dev nD) : (dat1 V c).share 3 = fullShare := rfl

/-- The three buffers one by one. -/
theorem arrBufs1_eq (c : Dev nD) (G : (b : Ref sig .tc) → Buf (Elt F) ((c : Thread nD τ).loc b)) :
    (arrBufs spec1 c G : sProp 𝕄)
      = iprop((((c : Thread nD τ).loc main_v3) ↦{fullShare} G main_v3) ∗ (((c : Thread nD τ).loc main_arg0) ↦{fullShare} G main_arg0)
          ∗ (((c : Thread nD τ).loc main_v4) ↦{fullShare} G main_v4)) := by
  unfold Pipeline.arrBufs
  exact bigSep_eq_bigSepL_of_eq [main_v3, main_arg0, main_v4] arrImage1 (by decide) _

/-- The three buffers, each whole at the full share at contents `G`, ARE the four windows' arrays at `G`. -/
theorem arrays1_iff (c : Dev nD) (G : (b : Ref sig .tc) → Buf (Elt F) ((c : Thread nD τ).loc b)) :
    (arrBufs spec1 c G : sProp 𝕄) ⊣⊢ (dat1 V c).arrays (fun w => G (arrRef spec1 w)) := by
  rw [arrBufs1_eq]
  unfold Dat.arrays
  rw [bigSep_W1]
  rw [(arr_whole1 0).set_eq_univ, (arr_whole1 2).set_eq_univ, (arr_whole1 3).set_eq_univ]
  rw [share1_0, share1_1, share1_2, share1_3]
  exact ⟨(sep_mono (pointsTo_share (PosShare.mem_left_op_right fullShare)).1 .rfl).trans sep_assoc.1,
    sep_assoc.2.trans (sep_mono (pointsTo_share (PosShare.mem_left_op_right fullShare)).2 .rfl)⟩

end

end Cert.Kernel.Hand

end
-- ==== Proof.K.Run.lean ====
/-
  The whole program's run: @main is a stretch of host operations (transpose and re-shape of the projection
  tensor), the first region (the projection as one matrix product), one more host operation (the product
  re-shaped to samples × coordinates × features), and the second region (the pairwise similarity features and the
  concatenation).  The contents of every unscoped buffer are followed from the launch through the four segments;
  every weakly fair execution terminates with the result buffer at what the second region's write-backs leave and
  the two argument arrays as launched.
-/
import proofs.«106793_j66391604461943_2_alg».proof.Proof.K.Body0
import proofs.«106793_j66391604461943_2_alg».proof.Proof.K.Shared1
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs)

variable (m : (ℓ : Loc nD τ sig) → Buf (Elt F) ℓ) (ρ : Dev nD → PrngReg)

/-! ## The buffers' contents at each segment boundary -/

/-- At launch. -/
abbrev B0 : Dev nD → Valuation τ sig (Elt F) := fun c b => (s₀ m ρ).mem ((c : Dev nD), b)
/-- After the first host stretch (the first region's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the first region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (arrRef spec0 w) :=
  (B2_arr m ρ c w).symm
theorem hrest0 (c : Dev nD) : ∀ b, b ∉ Finset.univ.image (arrRef spec0) → E2 m ρ c b = E1 m ρ c b :=
  fun b hb => B2_of_ne m ρ c b fun w e => hb (Finset.mem_image.mpr ⟨w, Finset.mem_univ _, e⟩)

/-- After the second host stretch (the second region's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- What the second region leaves in the result array. -/
def res4 (c : Dev nD) : Buf (Elt F) ((c : Thread nD τ).loc main_v4) := (dat1 (E3 m ρ) c).arrAt 3 cfg1.N
/-- At the second region's exit: only the result array has changed. -/
def B4 (c : Dev nD) : Valuation τ sig (Elt F) := Function.update (B3 m ρ c) (Proc.devRef .tc main_v4) (res4 m ρ c)
theorem B4_res (c : Dev nD) : B4 m ρ c (Proc.devRef .tc main_v4) = res4 m ρ c := by
  unfold B4; exact Function.update_self _ _ _
theorem B4_of_ne (c : Dev nD) (b : Ref sig .tc) (hb : b ≠ main_v4) :
    B4 m ρ c (Proc.devRef .tc b) = B3 m ρ c (Proc.devRef .tc b) := by
  unfold B4; exact Function.update_of_ne (StableHlo.devRef_ne_of_ne hb) _ _
abbrev E4 : (c : Dev nD) → (b : Ref sig .tc) → Buf (Elt F) ((c : Thread nD τ).loc b) := fun c b => B4 m ρ c b

/-- At the second region's exit each of its arrays holds what the pipeline leaves: the three inputs what they held
    (an input array is never written), the result its write-backs. -/
theorem hF1 (c : Dev nD) : ∀ w : Fin cfg1.W, (dat1 (E3 m ρ) c).arrAt w cfg1.N = E4 m ρ c (arrRef spec1 w)
  | ⟨0, _⟩ => (((dat1 (E3 m ρ) c).arrAt_in 0 rfl _).trans (A_eq1 (E3 m ρ) c 0)).trans (B4_of_ne m ρ c main_v3 (by decide)).symm
  | ⟨1, _⟩ => (((dat1 (E3 m ρ) c).arrAt_in 1 rfl _).trans (A_eq1 (E3 m ρ) c 1)).trans (B4_of_ne m ρ c main_v3 (by decide)).symm
  | ⟨2, _⟩ => (((dat1 (E3 m ρ) c).arrAt_in 2 rfl _).trans (A_eq1 (E3 m ρ) c 2)).trans (B4_of_ne m ρ c main_arg0 (by decide)).symm
  | ⟨3, _⟩ => (B4_res m ρ c).symm
theorem hrest1 (c : Dev nD) : ∀ b, b ∉ Finset.univ.image (arrRef spec1) → E4 m ρ c b = E3 m ρ c b :=
  fun b hb => B4_of_ne m ρ c b fun e => hb (e ▸ Finset.mem_image.mpr ⟨3, Finset.mem_univ _, rfl⟩)

/-! ## No segment writes an argument -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem host0_keeps (c : Dev nD) (W : Valuation τ sig (Elt F)) (b : Ref sig .tc) (h0 : b ≠ main_v0) (h1 : b ≠ main_v1) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))
theorem host1_keeps (c : Dev nD) (W : Valuation τ sig (Elt F)) (b : Ref sig .tc) (h3 : b ≠ main_v3) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h3))

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := host1_keeps c _ main_arg0 (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := host0_keeps c _ main_arg0 (by decide) (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := host1_keeps c _ main_arg1 (by decide)
    _ = B1 m ρ c (Proc.devRef .tc main_arg1) := B2_of_ne m ρ c main_arg1 (by decide)
    _ = B0 m ρ c (Proc.devRef .tc main_arg1) := host0_keeps c _ main_arg1 (by decide) (by decide)
    _ = m ((c : Thread nD τ).loc main_arg1) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The first region: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Every unscoped buffer at the second region's entry contents is its four windows' arrays (the shared array in
    halves) beside the buffers it does not window. -/
theorem entry1 (c : Dev nD) :
    (unscopedBufs c (E3 m ρ c) : sProp 𝕄)
      ⊢ iprop((dat1 (E3 m ρ) c).arrays ((dat1 (E3 m ρ) c).arrAt · 0) ∗ Pipeline.unscopedRest spec1 c (E3 m ρ c)) := by
  rw [Pipeline.unscopedBufs_split₀ cfgs (1 : Fin 2) winFacts₀1.arr_unscoped c (E3 m ρ c)]
  exact sep_mono (arrays1_iff (E3 m ρ) c (E3 m ρ c)).1 .rfl

/-- And at its exit the arrays, the result at what the write-backs left, go back among the unscoped buffers. -/
theorem exit1 (c : Dev nD) :
    iprop((dat1 (E3 m ρ) c).arrays ((dat1 (E3 m ρ) c).arrAt · cfg1.N) ∗ Pipeline.unscopedRest spec1 c (E3 m ρ c))
      ⊢ (unscopedBufs c (E4 m ρ c) : sProp 𝕄) := by
  rw [Pipeline.unscopedBufs_split₀ cfgs (1 : Fin 2) winFacts₀1.arr_unscoped c (E4 m ρ c)]
  refine sep_mono ?_ (Entails.of_eq ?_)
  · rw [show (fun w => (dat1 (E3 m ρ) c).arrAt w cfg1.N) = fun w => E4 m ρ c (arrRef spec1 w) from funext (hF1 m ρ c)]
    exact (arrays1_iff (E3 m ρ) c (E4 m ρ c)).2
  · unfold Pipeline.unscopedRest
    exact bigSep_congr fun b hb => by rw [hrest1 m ρ c b (Finset.mem_sdiff.mp hb).2]

set_option backward.isDefEq.respectTransparency.types false in
/-- The second region: entered from every unscoped buffer at `B3`, left at `B4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m ρ) c)
    unfold Pipeline.ΦA
    iintro ⟨Hp, -, Hr⟩
    isplitl [Hr]; · iexact Hr
    iexact Hp
  hout c := by
    rw [Pipeline.ownSems0_none]
    refine BIBase.Entails.trans (hout1 (E3 m ρ) c) ?_
    unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with the
    result buffer at what the second region's write-backs leave and the two argument arrays as launched. -/
theorem run : θ_run defs (onTc (τ := τ) (main (F := F))) ⟨m, fun _ => 0, ρ⟩ (fun r => ∀ c : Dev nD,
      r.2.mem ((c.tc : Thread nD τ).loc main_v4) = res4 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c =>
      ⟨(h c _ (mem_uc main_v4 (by decide))).trans (B4_res m ρ c),
       (h c _ (mem_uc main_arg0 (by decide))).trans (B4_main_arg0 m ρ c),
       (h c _ (mem_uc main_arg1 (by decide))).trans (B4_main_arg1 m ρ c)⟩)

end Cert.Kernel.Hand

end
-- ==== Proof.KI.Body0.lean ====
/-
  The first region: one grid point, the two operands fetched whole, the product stored whole.  After the body the
  output buffer holds the product payload of the two input blocks; the region's invariant is the plain one.
-/
import proofs.«106793_j66391604461943_2_alg».proof.Proof.Gen.KernelIdeal.Launch
import proofs.«106793_j66391604461943_2_alg».proof.Proof.Gen.KernelIdeal.Skeleton
import proofs.«106793_j66391604461943_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's accesses and what it leaves -/

abbrev r0_0 : Rect S256x1024 := Rect.unit (s := S256x1024) ![0, 0] S256x1024.size inb_S256x1024_S256x1024_0_0
abbrev r0_1 : Rect S1024x1024 := Rect.unit (s := S1024x1024) ![0, 0] S1024x1024.size inb_S1024x1024_S1024x1024_0_0

/-- The output buffer after the body: its one store, of the product payload of the two loaded blocks. -/
def out0_2 (x0 : Vec F S256x1024 .f32) (x1 : Vec F S1024x1024 .f32) : Vec F S256x1024 .f32 :=
  View.canon [⟨r0_0, k0_pay1 (View.ld x0 r0_0) (View.ld x1 r0_1)⟩]

/-- The one store covers the buffer. -/
theorem cover0_2 (p0 : Vec F S256x1024 .f32) (y : S256x1024.Idx) :
    ∃ pc ∈ ([⟨r0_0, p0⟩] : List (View.Piece (Elt F) S256x1024 .f32)), y ∈ pc.1.set :=
  View.cover_of_tiledL [⟨r0_0, p0⟩] S256x1024.size (by sl_kernel_rfl) y

set_option maxHeartbeats 1000000 in
/-- The body on whole staging memrefs, the inputs' at contents `x0`, `x1` and the output's at anything, runs to the
    continuation holding the inputs as they were and the output's at `out0_2 x0 x1`. -/
theorem sound_kernel0 (c : Dev nD) (E : Set ℕ) (i : grid0.Coords) (arg1 : Memref sig .tc .vmem S256x1024 .f32) (harg1 : arg1.IsWhole)
    (arg2 : Memref sig .tc .vmem S1024x1024 .f32) (harg2 : arg2.IsWhole) (arg3 : Memref sig .tc .vmem S256x1024 .f32) (harg3 : arg3.IsWhole)
    (x0 : Vec F S256x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

section
variable (V : (c : Dev nD) → (b : Ref sig .tc) → Buf (Elt F) ((c : Thread nD τ).loc b))

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Runs1.lean ====
/-
  The pairwise kernel (the second region) on its 2×2 grid: what its two branch conditions are at a grid
  point, where its output window is idle, the staging and scratch memrefs it is called with, and the region's
  invariant with the scratch accumulator spelt out.  A point is (i, j): i the block of query rows, j the block
  of key rows; the body clears the accumulator when j = 0 and writes the output block when j = 1 (the last j).
-/
import proofs.«106793_j66391604461943_2_alg».proof.Proof.Gen.KernelIdeal.Launch
import proofs.«106793_j66391604461943_2_alg».proof.Proof.Gen.KernelIdeal.Skeleton
import proofs.«106793_j66391604461943_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "j = 0": the body clears the accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- "j = 1": the body writes the output block. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where j = 0 the body stores nothing into the output window, and the pipeline does not write it back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- Where j = 1 it stores the whole block. -/
theorem liveAt1_3_B : ∀ t : Fin cfg1.N, ¬cond1_0 (grid1.coords t) → cond1_1 (grid1.coords t) → cfg1.idle 3 (grid1.coords t) = false := by decide +kernel

/-! ## The memrefs the body is called with -/

abbrev VO1_3 : View sig .tc .vmem S128x1152 .f32 := (Memref.whole cc1_stg3_0 : Memref sig .tc .vmem S128x1152 .f32).view
abbrev ms1_0 (t : Fin cfg1.N) : Memref sig .tc .vmem S128x8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1152 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S128x128 .f32 := Memref.whole cc1_scratch0
abbrev VS1_0 : View sig .tc .vmem S128x128 .f32 := scM1_0.view

/-- The first region's three staging buffers, which the second region never touches, each at some contents. -/
abbrev otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The region's plain invariant (every scoped buffer that is no staging buffer of this region at some contents, and
    the generator register) with the accumulator as a memref owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.Run1A.lean ====
/-
  The pairwise kernel's body at a grid point with j = 0, run once on whole staging memrefs: the accumulator is
  cleared and then the point's key block is added to it; the output window is left as it was found.  The pieces
  the accumulator ends with are the witness the run finds.
-/
import proofs.«106793_j66391604461943_2_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With the three input blocks at contents `x0`, `x1`, `x2`, the output buffer at `xi3` (handed back untouched) and the
    accumulator at anything, the body runs to the continuation holding the inputs and the output buffer as they were
    and the accumulator with the pieces `LS0` written. -/
noncomputable def kernelRun1_A (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : cond1_0 i) (hc1 : ¬cond1_1 i)
    (x0 : Vec F S128x8x128 .f32) (x1 : Vec F S128x8x128 .f32) (x2 : Vec F S128x1024 .f32) :
    Σ' (L3 : List (View.Piece (Elt F) S128x1152 .f32)), { LS0 : List (View.Piece (Elt F) S128x128 .f32) //
      ∀ (xi3 : Vec F S128x1152 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__pairwise_kernel i arg2 harg2 arg3 harg3 arg4 harg4 arg5 harg5 arg6 harg6) K } := by
  refine ⟨[], ?_, fun xi3 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Run1B.lean ====
/-
  The pairwise kernel's body at a grid point with j = 1 (the last key block), run once on whole staging memrefs:
  the point's key block is added to the accumulator the point before left, and the output block is written — the
  sample rows into its first 1024 columns, the accumulator minus one into its last 128.  The pieces the output
  buffer and the accumulator end with are the witness the run finds.
-/
import proofs.«106793_j66391604461943_2_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With the three input blocks at contents `x0`, `x1`, `x2`, the output buffer at anything and the accumulator at
    `xs0`, the body runs to the continuation holding the inputs as they were, the output buffer with the pieces `L3`
    written and the accumulator with the pieces `LS0` written. -/
noncomputable def kernelRun1_B (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) :
    Σ' (L3 : List (View.Piece (Elt F) S128x1152 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__pairwise_kernel i arg2 harg2 arg3 harg3 arg4 harg4 arg5 harg5 arg6 harg6) K } := by
  refine ⟨?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Body1.lean ====
/-
  The second region's proof data.  Its grid point t = 2·i + j handles query block i against key block j.  After
  a point with j = 0 the accumulator holds the cleared accumulator plus key block 0's contribution and the output
  buffer is untouched; after a point with j = 1 the accumulator has key block 1's contribution added and the output
  buffer holds the finished block.  The region's invariant carries the accumulator between points; the three
  inputs' buffers hold their blocks at every point, whether fetched there or not.
-/
import proofs.«106793_j66391604461943_2_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves -/

/-- With j = 0 the body stores nothing into the output buffer: a placeholder nothing consults. -/
def out1_A_3 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : cond1_0 i) (hc1 : ¬cond1_1 i)
    (x0 : Vec F S128x8x128 .f32) (x1 : Vec F S128x8x128 .f32) (x2 : Vec F S128x1024 .f32) : Vec F S128x1152 .f32 :=
  VO1_3.read (Elt F) (VO1_3.writes (Elt F) VO1_3.junk (kernelRun1_A c i arg2 harg2 arg3 harg3 arg4 harg4 arg5 harg5 arg6 harg6 hc0 hc1 x0 x1 x2).1)

/-- With j = 0 the accumulator's pieces (the clearing store and the final store) cover it. -/
theorem scover1_A_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : cond1_0 i) (hc1 : ¬cond1_1 i)
    (x0 : Vec F S128x8x128 .f32) (x1 : Vec F S128x8x128 .f32) (x2 : Vec F S128x1024 .f32) (y : S128x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S128x128.size (by sl_kernel_rfl) y

/-- What the accumulator holds after a point with j = 0. -/
def sout1_A_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : cond1_0 i) (hc1 : ¬cond1_1 i)
    (x0 : Vec F S128x8x128 .f32) (x1 : Vec F S128x8x128 .f32) (x2 : Vec F S128x1024 .f32) : Vec F S128x128 .f32 :=
  VS1_0.read (Elt F) (VS1_0.writes (Elt F) VS1_0.junk (kernelRun1_A c i arg2 harg2 arg3 harg3 arg4 harg4 arg5 harg5 arg6 harg6 hc0 hc1 x0 x1 x2).2.1)

/-- With j = 1 the two stores into the output buffer (its first 1024 columns, its last 128), cut into 128 × 128 squares, tile it. -/
theorem cover1_B_3 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) (y : S128x1152.Idx) :
    ∃ pc ∈ (kernelRun1_B c i arg2 harg2 arg3 harg3 arg4 harg4 arg5 harg5 arg6 harg6 hc0 hc1 x0 x1 x2 xs0).1, y ∈ pc.1.set :=
  View.cover_of_tiledBy (kernelRun1_B c i arg2 harg2 arg3 harg3 arg4 harg4 arg5 harg5 arg6 harg6 hc0 hc1 x0 x1 x2 xs0).1 ![128, 128] (by sl_kernel_rfl) y

/-- What the output buffer holds after a point with j = 1. -/
def out1_B_3 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) : Vec F S128x1152 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) (y : S128x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S128x128.size (by sl_kernel_rfl) y

/-- What the accumulator holds after a point with j = 1. -/
def sout1_B_0 (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) : Vec F S128x128 .f32 :=
  VS1_0.read (Elt F) (VS1_0.writes (Elt F) VS1_0.junk (kernelRun1_B c i arg2 harg2 arg3 harg3 arg4 harg4 arg5 harg5 arg6 harg6 hc0 hc1 x0 x1 x2 xs0).2.1)

section
variable (V : (c : Dev nD) → (b : Ref sig .tc) → Buf (Elt F) ((c : Thread nD τ).loc b))

theorem hA_of_even (t : Fin cfg1.N) (h0 : t.val % 2 = 0) : cond1_0 (grid1.coords t) ∧ ¬cond1_1 (grid1.coords t) :=
  ⟨(hcond1_0 t).mpr h0, fun h => by have := (hcond1_1 t).mp h; omega⟩
theorem hB_of_odd (t : Fin cfg1.N) (h0 : ¬t.val % 2 = 0) : ¬cond1_0 (grid1.coords t) ∧ cond1_1 (grid1.coords t) :=
  ⟨fun h => h0 ((hcond1_0 t).mp h), (hcond1_1 t).mpr (by omega)⟩

/-! ## What the output buffer and the accumulator hold after each point -/

/-- After the body at position `n`: (the output buffer, the accumulator).  An even position is a point with j = 0,
    an odd one a point with j = 1, which finds the accumulator the position before left. -/
def outsAt1 (c : Dev nD) : (n : ℕ) → n < cfg1.N → Vec F S128x1152 .f32 × Vec F S128x128 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (hA_of_even ⟨0, hn⟩ (Nat.zero_mod _)).1 (hA_of_even ⟨0, hn⟩ (Nat.zero_mod _)).2 (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (hA_of_even ⟨0, hn⟩ (Nat.zero_mod _)).1 (hA_of_even ⟨0, hn⟩ (Nat.zero_mod _)).2 (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (hA_of_even ⟨n + 1, hn⟩ h0).1 (hA_of_even ⟨n + 1, hn⟩ h0).2 (iblk1 V c 0 ⟨n + 1, hn⟩) (iblk1 V c 1 ⟨n + 1, hn⟩) (iblk1 V c 2 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (hA_of_even ⟨n + 1, hn⟩ h0).1 (hA_of_even ⟨n + 1, hn⟩ h0).2 (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (hB_of_odd ⟨n + 1, hn⟩ h0).1 (hB_of_odd ⟨n + 1, hn⟩ h0).2 (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (hB_of_odd ⟨n + 1, hn⟩ h0).1 (hB_of_odd ⟨n + 1, hn⟩ h0).2 (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 2 = 0) :
    outsAt1 V c t.val t.isLt =
      (out1_A_3 c (grid1.coords t) (ms1_0 t) (hs1_0 t) (ms1_1 t) (hs1_1 t) (ms1_2 t) (hs1_2 t) (ms1_3 t) (hs1_3 t) scM1_0 (Memref.isWhole_whole _) (hA_of_even t h0).1 (hA_of_even t h0).2 (iblk1 V c 0 t) (iblk1 V c 1 t) (iblk1 V c 2 t),
       sout1_A_0 c (grid1.coords t) (ms1_0 t) (hs1_0 t) (ms1_1 t) (hs1_1 t) (ms1_2 t) (hs1_2 t) (ms1_3 t) (hs1_3 t) scM1_0 (Memref.isWhole_whole _) (hA_of_even t h0).1 (hA_of_even t h0).2 (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt =
      (out1_B_3 c (grid1.coords t) (ms1_0 t) (hs1_0 t) (ms1_1 t) (hs1_1 t) (ms1_2 t) (hs1_2 t) (ms1_3 t) (hs1_3 t) scM1_0 (Memref.isWhole_whole _) (hB_of_odd t h0).1 (hB_of_odd t h0).2 (iblk1 V c 0 t) (iblk1 V c 1 t) (iblk1 V c 2 t) (outsAt1 V c (t.val - 1) (Nat.lt_of_le_of_lt (Nat.sub_le _ _) t.isLt)).2,
       sout1_B_0 c (grid1.coords t) (ms1_0 t) (hs1_0 t) (ms1_1 t) (hs1_1 t) (ms1_2 t) (hs1_2 t) (ms1_3 t) (hs1_3 t) scM1_0 (Memref.isWhole_whole _) (hB_of_odd t h0).1 (hB_of_odd t h0).2 (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The invariant carrying the accumulator -/

/-- Before position `n`: at the first point the region's plain invariant (the accumulator at anything); afterwards
    the accumulator at what the position before left, the first region's staging buffers at anything, and the
    generator register at some state. -/
def PhiS (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the region finds them; after the body each input's buffer at its block and the output's at
    `outsAt1`; the invariant carrying the accumulator; the array the two first windows share held half by each;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => PosShare.left fullShare
    | ⟨1, _⟩ => PosShare.right fullShare
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the parity of the position says whether j = 0 or
    j = 1; the invariant hands the body the accumulator (at anything at the first point, else at what the position
    before left) and takes it back at this position's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · rw [Dat.leavesExact_idle (dat1 V c) 3 t (idleAt1_3_A t (hA_of_even t h0).1 (hA_of_even t h0).2) (noFlush1_3_A t (hA_of_even t h0).1 (hA_of_even t h0).2)]
    rw [outsAt1_A V c t h0]
    unfold sout1_A_0; (try dsimp only)
    by_cases hz : t.val = 0
    · rw [PhiS_castSucc V c t, PhiS_zero V c _ _ hz, PhiA1_eq]
      iintro ⟨⟨⟨Ha, Hb, Hc, HS0⟩, Hg⟩, Ho, ⟨%d0, H0⟩, ⟨%d1, H1⟩, ⟨%d2, H2⟩, ⟨%d3, H3⟩⟩
      iapply ((kernelRun1_A c (grid1.coords t) _ _ _ _ _ _ _ _ _ _ (hA_of_even t h0).1 (hA_of_even t h0).2 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ha, Hb, Hc, HS0⟩, Hg⟩, Ho, ⟨%d0, H0⟩, ⟨%d1, H1⟩, ⟨%d2, H2⟩, ⟨%d3, H3⟩⟩
      iapply ((kernelRun1_A c (grid1.coords t) _ _ _ _ _ _ _ _ _ _ (hA_of_even t h0).1 (hA_of_even t h0).2 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc HS0 Hg]
      · isplitl [Ha Hb Hc HS0]
        · isplitl [Ha]; · iexact Ha
          isplitl [Hb]; · iexact Hb
          isplitl [Hc]; · iexact Hc
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · rw [show (dat1 V c).leavesExact 3 t = owns (c : Thread nD τ) (ms1_3 t) fullShare ((dat1 V c).after 3 t) from by
      unfold Dat.leavesExact; rw [liveAt1_3_B t (hB_of_odd t h0).1 (hB_of_odd t h0).2], after1_3]
    rw [outsAt1_B V c t h0]
    unfold out1_B_3 sout1_B_0; (try dsimp only)
    have hz : t.val ≠ 0 := fun e => h0 (by rw [e])
    rw [PhiS_castSucc V c t, PhiS_pos V c _ _ hz]
    iintro ⟨⟨⟨Ha, Hb, Hc, HS0⟩, Hg⟩, Ho, ⟨%d0, H0⟩, ⟨%d1, H1⟩, ⟨%d2, H2⟩, ⟨%d3, H3⟩⟩
    iapply ((kernelRun1_B c (grid1.coords t) _ _ _ _ _ _ _ _ _ _ (hB_of_odd t h0).1 (hB_of_odd t h0).2 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [Ha Hb Hc HS0 Hg]
    · isplitl [Ha Hb Hc HS0]
      · isplitl [Ha]; · iexact Ha
        isplitl [Hb]; · iexact Hb
        isplitl [Hc]; · iexact Hc
        unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- The region's plain invariant is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 4 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ha, Hb, Hc, HS0⟩, Hg⟩
  isplitl [Ha Hb Hc HS0]
  · isplitl [Ha]; · iexact Ha
    isplitl [Hb]; · iexact Hb
    isplitl [Hc]; · iexact Hc
    iexists _; iexact HS0
  iexact Hg

end

end Cert.KernelIdeal.Hand

end
-- ==== Proof.KI.Shared1.lean ====
/-
  The second region hands ONE array (the projected samples) to the kernel through two windows — the query block
  and the key block — beside the sample array and the result array.  Its three distinct buffers, each held whole,
  are the four windows' arrays as the proof data holds them: the shared array's full share is dealt in two halves,
  one to each window on it.
-/
import proofs.«106793_j66391604461943_2_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs)

/-- The distinct buffers behind the region's four windows. -/
theorem arrImage1 : (Finset.univ.image (arrRef spec1) : Finset (Ref sig .tc)) = [main_v3, main_arg0, main_v4].toFinset := by decide

section
variable (V : (c : Dev nD) → (b : Ref sig .tc) → Buf (Elt F) ((c : Thread nD τ).loc b))

theorem share1_0 (c : Dev nD) : (dat1 V c).share 0 = PosShare.left fullShare := rfl
theorem share1_1 (c : Dev nD) : (dat1 V c).share 1 = PosShare.right fullShare := rfl
theorem share1_2 (c : Dev nD) : (dat1 V c).share 2 = fullShare := rfl
theorem share1_3 (c : Dev nD) : (dat1 V c).share 3 = fullShare := rfl

/-- The three buffers one by one. -/
theorem arrBufs1_eq (c : Dev nD) (G : (b : Ref sig .tc) → Buf (Elt F) ((c : Thread nD τ).loc b)) :
    (arrBufs spec1 c G : sProp 𝕄)
      = iprop((((c : Thread nD τ).loc main_v3) ↦{fullShare} G main_v3) ∗ (((c : Thread nD τ).loc main_arg0) ↦{fullShare} G main_arg0)
          ∗ (((c : Thread nD τ).loc main_v4) ↦{fullShare} G main_v4)) := by
  unfold Pipeline.arrBufs
  exact bigSep_eq_bigSepL_of_eq [main_v3, main_arg0, main_v4] arrImage1 (by decide) _

/-- The three buffers, each whole at the full share at contents `G`, ARE the four windows' arrays at `G`. -/
theorem arrays1_iff (c : Dev nD) (G : (b : Ref sig .tc) → Buf (Elt F) ((c : Thread nD τ).loc b)) :
    (arrBufs spec1 c G : sProp 𝕄) ⊣⊢ (dat1 V c).arrays (fun w => G (arrRef spec1 w)) := by
  rw [arrBufs1_eq]
  unfold Dat.arrays
  rw [bigSep_W1]
  rw [(arr_whole1 0).set_eq_univ, (arr_whole1 2).set_eq_univ, (arr_whole1 3).set_eq_univ]
  rw [share1_0, share1_1, share1_2, share1_3]
  exact ⟨(sep_mono (pointsTo_share (PosShare.mem_left_op_right fullShare)).1 .rfl).trans sep_assoc.1,
    sep_assoc.2.trans (sep_mono (pointsTo_share (PosShare.mem_left_op_right fullShare)).2 .rfl)⟩

end

end Cert.KernelIdeal.Hand

end
-- ==== Proof.KI.Run.lean ====
/-
  The whole program's run: @main is a stretch of host operations (transpose and re-shape of the projection
  tensor), the first region (the projection as one matrix product), one more host operation (the product
  re-shaped to samples × coordinates × features), and the second region (the pairwise similarity features and the
  concatenation).  The contents of every unscoped buffer are followed from the launch through the four segments;
  every weakly fair execution terminates with the result buffer at what the second region's write-backs leave and
  the two argument arrays as launched.
-/
import proofs.«106793_j66391604461943_2_alg».proof.Proof.KI.Body0
import proofs.«106793_j66391604461943_2_alg».proof.Proof.KI.Shared1
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs)

variable (m : (ℓ : Loc nD τ sig) → Buf (Elt F) ℓ) (ρ : Dev nD → PrngReg)

/-! ## The buffers' contents at each segment boundary -/

/-- At launch. -/
abbrev B0 : Dev nD → Valuation τ sig (Elt F) := fun c b => (s₀ m ρ).mem ((c : Dev nD), b)
/-- After the first host stretch (the first region's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the first region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (arrRef spec0 w) :=
  (B2_arr m ρ c w).symm
theorem hrest0 (c : Dev nD) : ∀ b, b ∉ Finset.univ.image (arrRef spec0) → E2 m ρ c b = E1 m ρ c b :=
  fun b hb => B2_of_ne m ρ c b fun w e => hb (Finset.mem_image.mpr ⟨w, Finset.mem_univ _, e⟩)

/-- After the second host stretch (the second region's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- What the second region leaves in the result array. -/
def res4 (c : Dev nD) : Buf (Elt F) ((c : Thread nD τ).loc main_v4) := (dat1 (E3 m ρ) c).arrAt 3 cfg1.N
/-- At the second region's exit: only the result array has changed. -/
def B4 (c : Dev nD) : Valuation τ sig (Elt F) := Function.update (B3 m ρ c) (Proc.devRef .tc main_v4) (res4 m ρ c)
theorem B4_res (c : Dev nD) : B4 m ρ c (Proc.devRef .tc main_v4) = res4 m ρ c := by
  unfold B4; exact Function.update_self _ _ _
theorem B4_of_ne (c : Dev nD) (b : Ref sig .tc) (hb : b ≠ main_v4) :
    B4 m ρ c (Proc.devRef .tc b) = B3 m ρ c (Proc.devRef .tc b) := by
  unfold B4; exact Function.update_of_ne (StableHlo.devRef_ne_of_ne hb) _ _
abbrev E4 : (c : Dev nD) → (b : Ref sig .tc) → Buf (Elt F) ((c : Thread nD τ).loc b) := fun c b => B4 m ρ c b

/-- At the second region's exit each of its arrays holds what the pipeline leaves: the three inputs what they held
    (an input array is never written), the result its write-backs. -/
theorem hF1 (c : Dev nD) : ∀ w : Fin cfg1.W, (dat1 (E3 m ρ) c).arrAt w cfg1.N = E4 m ρ c (arrRef spec1 w)
  | ⟨0, _⟩ => (((dat1 (E3 m ρ) c).arrAt_in 0 rfl _).trans (A_eq1 (E3 m ρ) c 0)).trans (B4_of_ne m ρ c main_v3 (by decide)).symm
  | ⟨1, _⟩ => (((dat1 (E3 m ρ) c).arrAt_in 1 rfl _).trans (A_eq1 (E3 m ρ) c 1)).trans (B4_of_ne m ρ c main_v3 (by decide)).symm
  | ⟨2, _⟩ => (((dat1 (E3 m ρ) c).arrAt_in 2 rfl _).trans (A_eq1 (E3 m ρ) c 2)).trans (B4_of_ne m ρ c main_arg0 (by decide)).symm
  | ⟨3, _⟩ => (B4_res m ρ c).symm
theorem hrest1 (c : Dev nD) : ∀ b, b ∉ Finset.univ.image (arrRef spec1) → E4 m ρ c b = E3 m ρ c b :=
  fun b hb => B4_of_ne m ρ c b fun e => hb (e ▸ Finset.mem_image.mpr ⟨3, Finset.mem_univ _, rfl⟩)

/-! ## No segment writes an argument -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem host0_keeps (c : Dev nD) (W : Valuation τ sig (Elt F)) (b : Ref sig .tc) (h0 : b ≠ main_v0) (h1 : b ≠ main_v1) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))
theorem host1_keeps (c : Dev nD) (W : Valuation τ sig (Elt F)) (b : Ref sig .tc) (h3 : b ≠ main_v3) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h3))

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := host1_keeps c _ main_arg0 (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := host0_keeps c _ main_arg0 (by decide) (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := host1_keeps c _ main_arg1 (by decide)
    _ = B1 m ρ c (Proc.devRef .tc main_arg1) := B2_of_ne m ρ c main_arg1 (by decide)
    _ = B0 m ρ c (Proc.devRef .tc main_arg1) := host0_keeps c _ main_arg1 (by decide) (by decide)
    _ = m ((c : Thread nD τ).loc main_arg1) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The first region: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Every unscoped buffer at the second region's entry contents is its four windows' arrays (the shared array in
    halves) beside the buffers it does not window. -/
theorem entry1 (c : Dev nD) :
    (unscopedBufs c (E3 m ρ c) : sProp 𝕄)
      ⊢ iprop((dat1 (E3 m ρ) c).arrays ((dat1 (E3 m ρ) c).arrAt · 0) ∗ Pipeline.unscopedRest spec1 c (E3 m ρ c)) := by
  rw [Pipeline.unscopedBufs_split₀ cfgs (1 : Fin 2) winFacts₀1.arr_unscoped c (E3 m ρ c)]
  exact sep_mono (arrays1_iff (E3 m ρ) c (E3 m ρ c)).1 .rfl

/-- And at its exit the arrays, the result at what the write-backs left, go back among the unscoped buffers. -/
theorem exit1 (c : Dev nD) :
    iprop((dat1 (E3 m ρ) c).arrays ((dat1 (E3 m ρ) c).arrAt · cfg1.N) ∗ Pipeline.unscopedRest spec1 c (E3 m ρ c))
      ⊢ (unscopedBufs c (E4 m ρ c) : sProp 𝕄) := by
  rw [Pipeline.unscopedBufs_split₀ cfgs (1 : Fin 2) winFacts₀1.arr_unscoped c (E4 m ρ c)]
  refine sep_mono ?_ (Entails.of_eq ?_)
  · rw [show (fun w => (dat1 (E3 m ρ) c).arrAt w cfg1.N) = fun w => E4 m ρ c (arrRef spec1 w) from funext (hF1 m ρ c)]
    exact (arrays1_iff (E3 m ρ) c (E4 m ρ c)).2
  · unfold Pipeline.unscopedRest
    exact bigSep_congr fun b hb => by rw [hrest1 m ρ c b (Finset.mem_sdiff.mp hb).2]

set_option backward.isDefEq.respectTransparency.types false in
/-- The second region: entered from every unscoped buffer at `B3`, left at `B4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m ρ) c)
    unfold Pipeline.ΦA
    iintro ⟨Hp, -, Hr⟩
    isplitl [Hr]; · iexact Hr
    iexact Hp
  hout c := by
    rw [Pipeline.ownSems0_none]
    refine BIBase.Entails.trans (hout1 (E3 m ρ) c) ?_
    unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with the
    result buffer at what the second region's write-backs leave and the two argument arrays as launched. -/
theorem run : θ_run defs (onTc (τ := τ) (main (F := F))) ⟨m, fun _ => 0, ρ⟩ (fun r => ∀ c : Dev nD,
      r.2.mem ((c.tc : Thread nD τ).loc main_v4) = res4 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c =>
      ⟨(h c _ (mem_uc main_v4 (by decide))).trans (B4_res m ρ c),
       (h c _ (mem_uc main_arg0 (by decide))).trans (B4_main_arg0 m ρ c),
       (h c _ (mem_uc main_arg1 (by decide))).trans (B4_main_arg1 m ρ c)⟩)

end Cert.KernelIdeal.Hand

end
-- ==== Proof.KI.AccOut.lean ====
/-
  The value the second kernel's body stores back into its accumulator, written as one term over the body's loads:
  the block of query rows (128 samples × 8 coordinates × 128 features), the eight slices of 16 key samples each,
  and the accumulator as loaded.  The body keeps a running sum that starts from the zero block; for each key slice
  it adds the lane sums (over the 16 keys) of exp(0 − Σ_k |query − key|), the inner sum running over the 8
  coordinates; at the end the loaded accumulator is added to the running sum.  The term below is the composition of
  the body's arithmetic pieces in the order in which the body evaluates them.
-/
import proofs.«106793_j66391604461943_2_alg».proof.Proof.Gen.KernelIdeal.Skeleton

noncomputable section

namespace Cert.KernelIdeal.Hand

open Cert.KernelIdeal Cert.KernelIdeal.Gen Idealize.ShloMosaic

variable {F : FTy → Type} [FloatOps F]

/-- The accumulator the body stores back, from the query block, the eight key slices and the accumulator it loaded. -/
def accOut (v3 : Vec F S128x8x128 .f32) (v10 v118 v226 v334 v442 v550 v658 v766 : Vec F S16x8x128 .f32) (v871 : Vec F S128x128 .f32) : FVec F S128x128 .f32 :=
  k1_pay1 (k1_pay52 (k1_pay4 v3) (k1_pay44 (k1_pay4 v3) (k1_pay38 (k1_pay4 v3) (k1_pay33 (k1_pay4 v3) (k1_pay28 (k1_pay4 v3) (k1_pay24 (k1_pay18 (k1_pay13 k1_pay5 (k1_pay10 (k1_pay4 v3) (k1_pay6 v10) (k1_pay7 v3 v10) (k1_pay8 v3) (k1_pay9 v10)) (k1_pay11 (k1_pay4 v3)) (k1_pay12 (k1_pay6 v10))) (k1_pay17 (k1_pay4 v3) (k1_pay14 v118) (k1_pay15 (k1_pay4 v3) v118) (k1_pay16 (k1_pay4 v3))) (Scalar.ofBits .f32 0x00000000#32)) (k1_pay23 (k1_pay4 v3) (k1_pay19 v226) (k1_pay20 (k1_pay4 v3) v226) (k1_pay21 (k1_pay4 v3)) (k1_pay22 v226))) (k1_pay25 v334) (k1_pay26 (k1_pay4 v3) v334) (k1_pay27 (k1_pay4 v3) v334)) (k1_pay29 v442) (k1_pay30 (k1_pay4 v3) v442) (k1_pay31 (k1_pay4 v3)) (k1_pay32 v442)) (k1_pay35 (k1_pay34 v550)) (k1_pay36 (k1_pay4 v3) (k1_pay34 v550)) (k1_pay37 (k1_pay4 v3) (k1_pay34 v550))) (k1_pay39 v658) (k1_pay42 (k1_pay4 v3) (k1_pay39 v658) k1_pay40 (k1_pay41 (k1_pay4 v3))) (k1_pay43 (k1_pay4 v3))) (k1_pay45 v766) (k1_pay49 (k1_pay4 v3) (k1_pay45 v766) k1_pay46 (k1_pay47 v766) (k1_pay48 (k1_pay4 v3))) (k1_pay50 (k1_pay45 v766)) (k1_pay51 (k1_pay4 v3)) v871)

/-- The running sum after the first key slice: the zero block plus, per slice, the lane sums of
    exp(0 − Σ_k |query − key|). -/
def carry0 (v3 : Vec F S128x8x128 .f32) (v10 : Vec F S16x8x128 .f32) : FVec F S128x128 .f32 :=
  k1_pay13 k1_pay5 (k1_pay10 (k1_pay4 v3) (k1_pay6 v10) (k1_pay7 v3 v10) (k1_pay8 v3) (k1_pay9 v10)) (k1_pay11 (k1_pay4 v3)) (k1_pay12 (k1_pay6 v10))

/-- The running sum after the first two key slices: the zero block plus, per slice, the lane sums of
    exp(0 − Σ_k |query − key|). -/
def carry1 (v3 : Vec F S128x8x128 .f32) (v10 v118 : Vec F S16x8x128 .f32) : FVec F S128x128 .f32 :=
  k1_pay18 (carry0 v3 v10) (k1_pay17 (k1_pay4 v3) (k1_pay14 v118) (k1_pay15 (k1_pay4 v3) v118) (k1_pay16 (k1_pay4 v3))) (Scalar.ofBits .f32 0x00000000#32)

/-- The running sum after the first three key slices: the zero block plus, per slice, the lane sums of
    exp(0 − Σ_k |query − key|). -/
def carry2 (v3 : Vec F S128x8x128 .f32) (v10 v118 v226 : Vec F S16x8x128 .f32) : FVec F S128x128 .f32 :=
  k1_pay24 (carry1 v3 v10 v118) (k1_pay23 (k1_pay4 v3) (k1_pay19 v226) (k1_pay20 (k1_pay4 v3) v226) (k1_pay21 (k1_pay4 v3)) (k1_pay22 v226))

/-- The running sum after the first four key slices: the zero block plus, per slice, the lane sums of
    exp(0 − Σ_k |query − key|). -/
def carry3 (v3 : Vec F S128x8x128 .f32) (v10 v118 v226 v334 : Vec F S16x8x128 .f32) : FVec F S128x128 .f32 :=
  k1_pay28 (k1_pay4 v3) (carry2 v3 v10 v118 v226) (k1_pay25 v334) (k1_pay26 (k1_pay4 v3) v334) (k1_pay27 (k1_pay4 v3) v334)

/-- The running sum after the first five key slices: the zero block plus, per slice, the lane sums of
    exp(0 − Σ_k |query − key|). -/
def carry4 (v3 : Vec F S128x8x128 .f32) (v10 v118 v226 v334 v442 : Vec F S16x8x128 .f32) : FVec F S128x128 .f32 :=
  k1_pay33 (k1_pay4 v3) (carry3 v3 v10 v118 v226 v334) (k1_pay29 v442) (k1_pay30 (k1_pay4 v3) v442) (k1_pay31 (k1_pay4 v3)) (k1_pay32 v442)

/-- The running sum after the first six key slices: the zero block plus, per slice, the lane sums of
    exp(0 − Σ_k |query − key|). -/
def carry5 (v3 : Vec F S128x8x128 .f32) (v10 v118 v226 v334 v442 v550 : Vec F S16x8x128 .f32) : FVec F S128x128 .f32 :=
  k1_pay38 (k1_pay4 v3) (carry4 v3 v10 v118 v226 v334 v442) (k1_pay35 (k1_pay34 v550)) (k1_pay36 (k1_pay4 v3) (k1_pay34 v550)) (k1_pay37 (k1_pay4 v3) (k1_pay34 v550))

/-- The running sum after the first seven key slices: the zero block plus, per slice, the lane sums of
    exp(0 − Σ_k |query − key|). -/
def carry6 (v3 : Vec F S128x8x128 .f32) (v10 v118 v226 v334 v442 v550 v658 : Vec F S16x8x128 .f32) : FVec F S128x128 .f32 :=
  k1_pay44 (k1_pay4 v3) (carry5 v3 v10 v118 v226 v334 v442 v550) (k1_pay39 v658) (k1_pay42 (k1_pay4 v3) (k1_pay39 v658) k1_pay40 (k1_pay41 (k1_pay4 v3))) (k1_pay43 (k1_pay4 v3))

/-- The stored accumulator, with the running sum after the first seven slices named: the last slice's share and
    the loaded accumulator are added inside the final piece. -/
theorem accOut_eq_carry (v3 : Vec F S128x8x128 .f32) (v10 v118 v226 v334 v442 v550 v658 v766 : Vec F S16x8x128 .f32) (v871 : Vec F S128x128 .f32) :
    accOut v3 v10 v118 v226 v334 v442 v550 v658 v766 v871
      = k1_pay1 (k1_pay52 (k1_pay4 v3) (carry6 v3 v10 v118 v226 v334 v442 v550 v658) (k1_pay45 v766) (k1_pay49 (k1_pay4 v3) (k1_pay45 v766) k1_pay46 (k1_pay47 v766) (k1_pay48 (k1_pay4 v3))) (k1_pay50 (k1_pay45 v766)) (k1_pay51 (k1_pay4 v3)) v871) := rfl

end Cert.KernelIdeal.Hand

end
-- ==== Proof.KI.Pieces.lean ====
/-
  What the symbolic runs of the pairwise kernel's body found, named: the accumulator after the body is the
  accumulator function `accOut` of the query block, the eight 16-row slices of the key block and the accumulator
  the body loaded (the cleared one where j = 0); where j = 1 the output block is the sample block in its first
  1024 columns and that accumulator minus one in its last 128.
-/
import proofs.«106793_j66391604461943_2_alg».proof.Proof.KI.Body1
import proofs.«106793_j66391604461943_2_alg».proof.Proof.KI.AccOut
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 16 key rows from row `n` of a 128-row key block. -/
abbrev keyRows (n : ℕ) (h : ∀ a, (![n, 0, 0] : Fin S128x8x128.rank → ℕ) a + S16x8x128.size a ≤ S128x8x128.size a) : Rect S128x8x128 :=
  Rect.unit (s := S128x8x128) ![n, 0, 0] S16x8x128.size h

/-- The accumulator after the body, from the query block `x0`, the key block `x1` and the accumulator found. -/
def accStep (x0 x1 : Vec F S128x8x128 .f32) (acc : Vec F S128x128 .f32) : FVec F S128x128 .f32 :=
  accOut x0 (View.ld x1 (keyRows 0 (by decide))) (View.ld x1 (keyRows 16 (by decide))) (View.ld x1 (keyRows 32 (by decide)))
    (View.ld x1 (keyRows 48 (by decide))) (View.ld x1 (keyRows 64 (by decide))) (View.ld x1 (keyRows 80 (by decide)))
    (View.ld x1 (keyRows 96 (by decide))) (View.ld x1 (keyRows 112 (by decide))) acc

theorem hz2 : (![0, 0] : Fin S128x128.rank → Nat) = fun _ => 0 := funext fun a => by fin_cases a <;> rfl
theorem hz3 : (![0, 0, 0] : Fin S128x8x128.rank → Nat) = fun _ => 0 := funext fun a => by fin_cases a <;> rfl

/-- Where j = 0: the accumulator function of the cleared accumulator. -/
theorem sout1_A_eq (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : cond1_0 i) (hc1 : ¬cond1_1 i)
    (x0 : Vec F S128x8x128 .f32) (x1 : Vec F S128x8x128 .f32) (x2 : Vec F S128x1024 .f32) :
    sout1_A_0 c i arg2 harg2 arg3 harg3 arg4 harg4 arg5 harg5 arg6 harg6 hc0 hc1 x0 x1 x2 = accStep x0 x1 (k1_pay3 (F := F)) := by
  unfold sout1_A_0
  rw [View.read_writes_junk_eq_canon]
  unfold kernelRun1_A
  dsimp only
  rw [View.canon_cons_unit_zero hz2]
  sl_unfold_words
  simp only [View.readAt_eq_ld, harg2.read_unread, harg3.read_unread, View.ld_unit_zero (S := S128x8x128) hz3,
    View.readCov_unit_zero (S := S128x128) _ hz2]
  rfl

/-- Where j = 1: the accumulator function of the accumulator the point before left. -/
theorem sout1_B_eq (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) :
    sout1_B_0 c i arg2 harg2 arg3 harg3 arg4 harg4 arg5 harg5 arg6 harg6 hc0 hc1 x0 x1 x2 xs0 = accStep x0 x1 xs0 := by
  unfold sout1_B_0
  rw [View.read_writes_junk_eq_canon]
  unfold kernelRun1_B
  dsimp only
  sl_unfold_words
  rw [View.canon_unit_zero hz2]
  simp only [View.readAt_eq_ld, harg2.read_unread, harg3.read_unread, harg6.read_unread, View.ld_unit_zero (S := S128x8x128) hz3,
    View.ld_unit_zero (S := S128x128) hz2]
  rfl

theorem hz2' : (![0, 0] : Fin S128x1024.rank → Nat) = fun _ => 0 := funext fun a => by fin_cases a <;> rfl

/-- Where j = 1: the output block — its last 128 columns the accumulator minus one, its first 1024 the sample block. -/
theorem out1_B_eq (c : Dev nD) (i : grid1.Coords) (arg2 : Memref sig .tc .vmem S128x8x128 .f32) (harg2 : arg2.IsWhole) (arg3 : Memref sig .tc .vmem S128x8x128 .f32) (harg3 : arg3.IsWhole) (arg4 : Memref sig .tc .vmem S128x1024 .f32) (harg4 : arg4.IsWhole) (arg5 : Memref sig .tc .vmem S128x1152 .f32) (harg5 : arg5.IsWhole) (arg6 : Memref sig .tc .vmem S128x128 .f32) (harg6 : arg6.IsWhole) (hc0 : ¬cond1_0 i) (hc1 : cond1_1 i)
    (x0 : Vec F S128x8x128 .f32) (x1 : Vec F S128x8x128 .f32) (x2 : Vec F S128x1024 .f32) (xs0 : Vec F S128x128 .f32) :
    out1_B_3 c i arg2 harg2 arg3 harg3 arg4 harg4 arg5 harg5 arg6 harg6 hc0 hc1 x0 x1 x2 xs0
      = View.canon [⟨Rect.unit (s := S128x1152) ![0, 1024] S128x128.size inb_S128x1152_S128x128_0_1024, k1_pay2 (accStep x0 x1 xs0)⟩,
          ⟨Rect.unit (s := S128x1152) ![0, 0] S128x1024.size inb_S128x1152_S128x1024_0_0, x2⟩] := by
  unfold out1_B_3
  rw [View.read_writes_junk_eq_canon]
  unfold kernelRun1_B
  dsimp only
  sl_unfold_words
  simp only [View.readAt_eq_ld, harg2.read_unread, harg3.read_unread, harg4.read_unread, harg6.read_unread,
    View.ld_unit_zero (S := S128x8x128) hz3, View.ld_unit_zero (S := S128x128) hz2, View.ld_unit_zero (S := S128x1024) hz2',
    View.readCov_unit_zero (S := S128x128) _ hz2]
  rfl

end Cert.KernelIdeal.Hand

end
-- ==== Proof.Spec.lean ====
/-
  Minibatch discrimination on the extended reals, as one function of the two argument arrays.

  A batch of 256 samples `x` (256 × 1024) is projected by a tensor `T` (1024 × 128 × 8) to 128 features of 8
  coordinates each: M(b, o, k) = Σ_f x(b, f) · T(f, o, k).  Two samples are compared feature by feature in the
  L1 distance of their 8 coordinates, d(i, j, o) = Σ_k |M(i, o, k) − M(j, o, k)|, and sample i's o-th similarity
  feature is Σ_j exp(−d(i, j, o)) − 1 (the −1 removes the sample's comparison with itself).  The result is `x` with
  the 128 similarity features appended to every row (256 × 1152).  |v| is max v (−v).
-/
import Idealize.ShloMosaic.PureOps.Ideal
import Idealize.ShloMosaic.PureOps.Ideal.Laws
import Idealize.ShloMosaic.Lib.ValueIdx

noncomputable section

namespace Cert.Minibatch

open Idealize.ShloMosaic Idealize.ShloMosaic.ValueIdx

abbrev SX : Shape := ⟨2, ![256, 1024]⟩
abbrev ST : Shape := ⟨3, ![1024, 128, 8]⟩
abbrev SOut : Shape := ⟨2, ![256, 1152]⟩

/-- The word of the float 1.0. -/
abbrev one : EReal := Ideal.ofBits .f32 0x3F800000#32

/-- M(b, o, k): sample `b` projected to coordinate `k` of feature `o`. -/
def proj (x : SX.Idx → EReal) (T : ST.Idx → EReal) (b : Fin 256) (o : Fin 128) (k : Fin 8) : EReal :=
  ∑ f : Fin 1024, x (ix2 b f) * T (ix3 f o k)

/-- |u − v| as the float operations spell it: the larger of the difference and its negation. -/
def absDiff (u v : EReal) : EReal := max (u - v) (-(u - v))

/-- d(i, j, o): the L1 distance of samples `i` and `j` in feature `o`. -/
def dist (x : SX.Idx → EReal) (T : ST.Idx → EReal) (i j : Fin 256) (o : Fin 128) : EReal :=
  ∑ k : Fin 8, absDiff (proj x T i o k) (proj x T j o k)

/-- Sample `i`'s similarity feature `o`. -/
def feat (x : SX.Idx → EReal) (T : ST.Idx → EReal) (i : Fin 256) (o : Fin 128) : EReal :=
  (∑ j : Fin 256, Ideal.exp (-(dist x T i j o))) - one

/-- The whole result: the samples' rows with their similarity features appended. -/
def result (x : SX.Idx → EReal) (T : ST.Idx → EReal) : SOut.Idx → EReal := fun q =>
  if h : (q 1).val < 1024 then x (ix2 (q 0) ⟨(q 1).val, h⟩)
  else feat x T (q 0) ⟨(q 1).val - 1024, by have := idx2_lt1 q; omega⟩

theorem result_left (x : SX.Idx → EReal) (T : ST.Idx → EReal) (i : Fin 256) (f : Fin 1024) :
    result x T (ix2 i ⟨f.val, by omega⟩) = x (ix2 i f) := by
  unfold result; rw [dif_pos (show ((ix2 i (⟨f.val, by omega⟩ : Fin 1152) : SOut.Idx) 1).val < 1024 from f.isLt)]

theorem result_right (x : SX.Idx → EReal) (T : ST.Idx → EReal) (i : Fin 256) (o : Fin 128) :
    result x T (ix2 i ⟨1024 + o.val, by omega⟩) = feat x T i o := by
  unfold result
  rw [dif_neg (show ¬((ix2 i (⟨1024 + o.val, by omega⟩ : Fin 1152) : SOut.Idx) 1).val < 1024 from by
    show ¬(1024 + o.val < 1024); omega)]
  congr 1
  exact Fin.ext (by show 1024 + o.val - 1024 = o.val; omega)

/-- The distance does not depend on the order of the two samples. -/
theorem absDiff_comm (u v : EReal) : absDiff u v = absDiff v u := by
  unfold absDiff
  induction u using EReal.rec <;> induction v using EReal.rec <;>
    first
      | rfl
      | (simp only [← EReal.coe_sub, ← EReal.coe_neg, neg_sub]; exact max_comm _ _)
      | simp

end Cert.Minibatch

end
-- ==== Proof.KI.AccValue.lean ====
/-
  What the second kernel's arithmetic computes on the extended reals, index by index.

  The second kernel's body compares a block of 128 query samples with 128 key samples, 16 at a time.  For one slice
  of 16 keys it forms, for every (query a, key r, feature o), the L1 distance Σ_k |q(a, k, o) − y(r, k, o)| over the
  8 coordinates — starting from zero and adding one coordinate's term after the other —, takes exp(0 − distance) and
  sums over the 16 keys.  Every slice's share is computed by the same term (`sliceSum` below) of the query block and
  the slice, both narrowed to the 16-bit format, which on the extended reals is the identity.  The eight shares are
  added, in order, to a running sum that starts from the zero block, and the accumulator loaded from scratch is
  added last.  None of the laws used needs finiteness: 0 + v = v, 0 − v = −v, and regrouping of a sum.
-/
import proofs.«106793_j66391604461943_2_alg».proof.Proof.KI.AccOut
import proofs.«106793_j66391604461943_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## One key slice's share, as a term of the query block and the slice -/

section Generic
variable {F : FTy → Type} [FloatOps F]

/-- Coordinate `k` of every query sample, repeated along the 16 keys of a slice: entry (a, r, o) is the query block
    at (a, k, o). -/
def qCoord (k : ℕ) (h : S128x8x128.Slices ![0, k, 0] S128x1x128) (u : FVec F S128x8x128 .bf16) : FVec F S128x16x128 .bf16 :=
  broadcastTo S128x16x128 (shapeCast S128x1x128 (shapeCast S128x128 (extractStridedSlice S128x1x128 ![0, k, 0] u h)
    shapeCasts_S128x1x128_S128x128) shapeCasts_S128x128_S128x1x128) broadcasts_S128x1x128_S128x16x128

/-- Coordinate `k` of every key sample of a slice, repeated along the 128 queries: entry (a, r, o) is the key slice
    at (r, k, o). -/
def kCoord (k : ℕ) (h : S16x8x128.Slices ![0, k, 0] S16x1x128) (w : FVec F S16x8x128 .bf16) : FVec F S128x16x128 .bf16 :=
  broadcastTo S128x16x128 (shapeCast S1x16x128 (shapeCast S16x128 (extractStridedSlice S16x1x128 ![0, k, 0] w h)
    shapeCasts_S16x1x128_S16x128) shapeCasts_S16x128_S1x16x128) broadcasts_S1x16x128_S128x16x128

/-- |query − key| in coordinate `k`, for every (query, key, feature). -/
def coordDiff (k : ℕ) (hq : S128x8x128.Slices ![0, k, 0] S128x1x128) (hk : S16x8x128.Slices ![0, k, 0] S16x1x128)
    (u : FVec F S128x8x128 .bf16) (w : FVec F S16x8x128 .bf16) : FVec F S128x16x128 .f32 :=
  extf .f32 (absf (subf (qCoord k hq u) (kCoord k hk w))) bitsLt_bf16_f32

/-- The L1 distance of every (query, key) pair in every feature: the zero block plus the eight coordinates'
    differences, added in order. -/
def l1Dist (u : FVec F S128x8x128 .bf16) (w : FVec F S16x8x128 .bf16) : FVec F S128x16x128 .f32 :=
  addf (addf (addf (addf (addf (addf (addf (addf (broadcast S128x16x128 (Scalar.ofBits .f32 0x00000000#32)) (coordDiff 0 slices_S128x8x128_o0_0_0_S128x1x128 slices_S16x8x128_o0_0_0_S16x1x128 u w)) (coordDiff 1 slices_S128x8x128_o0_1_0_S128x1x128 slices_S16x8x128_o0_1_0_S16x1x128 u w)) (coordDiff 2 slices_S128x8x128_o0_2_0_S128x1x128 slices_S16x8x128_o0_2_0_S16x1x128 u w)) (coordDiff 3 slices_S128x8x128_o0_3_0_S128x1x128 slices_S16x8x128_o0_3_0_S16x1x128 u w)) (coordDiff 4 slices_S128x8x128_o0_4_0_S128x1x128 slices_S16x8x128_o0_4_0_S16x1x128 u w)) (coordDiff 5 slices_S128x8x128_o0_5_0_S128x1x128 slices_S16x8x128_o0_5_0_S16x1x128 u w)) (coordDiff 6 slices_S128x8x128_o0_6_0_S128x1x128 slices_S16x8x128_o0_6_0_S16x1x128 u w)) (coordDiff 7 slices_S128x8x128_o0_7_0_S128x1x128 slices_S16x8x128_o0_7_0_S16x1x128 u w)

/-- One key slice's share of the accumulator: the sum over the slice's 16 keys of exp(0 − distance). -/
def sliceSum (u : FVec F S128x8x128 .bf16) (w : FVec F S16x8x128 .bf16) : FVec F S128x128 .f32 :=
  multiReduction .add [1] S128x128 (exp (subf (broadcast S128x16x128 (Scalar.ofBits .f32 0x00000000#32)) (l1Dist u w)))
    0x00000000#32 reduces_S128x16x128_S128x128 (.inl rfl) rfl

/-! ## The stored accumulator is the eight shares added in order

Each equation holds by unfolding: the body's pieces, put together in the order the body evaluates them, are
these terms. -/

/-- The running sum after the first slice is the zero block plus that slice's share. -/
theorem carry0_eq (v3 : Vec F S128x8x128 .f32) (v10 : Vec F S16x8x128 .f32) :
    carry0 v3 v10 = addf k1_pay5 (sliceSum (k1_pay4 v3) (k1_pay6 v10)) := rfl

/-- Each further slice adds its share to the running sum. -/
theorem carry1_eq (v3 : Vec F S128x8x128 .f32) (v10 v118 : Vec F S16x8x128 .f32) :
    carry1 v3 v10 v118
      = addf (carry0 v3 v10) (sliceSum (k1_pay4 v3) (k1_pay6 v118)) := rfl

/-- Each further slice adds its share to the running sum. -/
theorem carry2_eq (v3 : Vec F S128x8x128 .f32) (v10 v118 v226 : Vec F S16x8x128 .f32) :
    carry2 v3 v10 v118 v226
      = addf (carry1 v3 v10 v118) (sliceSum (k1_pay4 v3) (k1_pay6 v226)) := rfl

/-- Each further slice adds its share to the running sum. -/
theorem carry3_eq (v3 : Vec F S128x8x128 .f32) (v10 v118 v226 v334 : Vec F S16x8x128 .f32) :
    carry3 v3 v10 v118 v226 v334
      = addf (carry2 v3 v10 v118 v226) (sliceSum (k1_pay4 v3) (k1_pay6 v334)) := rfl

/-- Each further slice adds its share to the running sum. -/
theorem carry4_eq (v3 : Vec F S128x8x128 .f32) (v10 v118 v226 v334 v442 : Vec F S16x8x128 .f32) :
    carry4 v3 v10 v118 v226 v334 v442
      = addf (carry3 v3 v10 v118 v226 v334) (sliceSum (k1_pay4 v3) (k1_pay6 v442)) := rfl

/-- Each further slice adds its share to the running sum. -/
theorem carry5_eq (v3 : Vec F S128x8x128 .f32) (v10 v118 v226 v334 v442 v550 : Vec F S16x8x128 .f32) :
    carry5 v3 v10 v118 v226 v334 v442 v550
      = addf (carry4 v3 v10 v118 v226 v334 v442) (sliceSum (k1_pay4 v3) (k1_pay6 v550)) := rfl

/-- Each further slice adds its share to the running sum. -/
theorem carry6_eq (v3 : Vec F S128x8x128 .f32) (v10 v118 v226 v334 v442 v550 v658 : Vec F S16x8x128 .f32) :
    carry6 v3 v10 v118 v226 v334 v442 v550 v658
      = addf (carry5 v3 v10 v118 v226 v334 v442 v550) (sliceSum (k1_pay4 v3) (k1_pay6 v658)) := rfl

/-- The stored accumulator: the loaded one plus (the running sum after seven slices plus the eighth slice's share),
    through a cast to the same shape. -/
theorem accOut_eq_fold (v3 : Vec F S128x8x128 .f32) (v10 v118 v226 v334 v442 v550 v658 v766 : Vec F S16x8x128 .f32) (v871 : Vec F S128x128 .f32) :
    accOut v3 v10 v118 v226 v334 v442 v550 v658 v766 v871
      = k1_pay1 (addf v871 (addf (carry6 v3 v10 v118 v226 v334 v442 v550 v658) (sliceSum (k1_pay4 v3) (k1_pay6 v766)))) := rfl

end Generic

/-! ## Layout operations around a unit middle axis, read at an index given by coordinates -/

section Layout
variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`, whatever the unit
    coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, r, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (r : Fin c) (j : Fin b) :
    broadcastTo ⟨3, ![a, c, b]⟩ v h (ix3 i r j) = v (ix3 i (0 : Fin 1) j) := by
  refine broadcastTo_apply v h (ix3 i r j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, r, j)`, the operand at `(0, r, j)`. -/
theorem broadcastTo_1cb_acb_apply {a b c : ℕ} (v : (⟨3, ![1, c, b]⟩ : Shape).Idx → α)
    (h : (⟨3, ![1, c, b]⟩ : Shape).Broadcasts ⟨3, ![a, c, b]⟩) (i : Fin a) (r : Fin c) (j : Fin b) :
    broadcastTo ⟨3, ![a, c, b]⟩ v h (ix3 i r j) = v (ix3 (0 : Fin 1) r j) := by
  refine broadcastTo_apply v h (ix3 i r j) (ix3 (0 : Fin 1) r j) fun ax => ?_
  match ax with
  | ⟨0, _⟩ => rfl
  | ⟨1, _⟩ =>
    show r.val = if c = 1 then 0 else r.val
    split
    · have := r.isLt; omega
    · rfl
  | ⟨2, _⟩ =>
    show j.val = if b = 1 then 0 else j.val
    split
    · have := j.isLt; omega
    · rfl

end Layout

/-! ## One slice's share at an index, on the extended reals -/

section AtIdeal

/-- The query side of coordinate `k` at (a, r, o) is the query block at (a, k, o). -/
theorem qCoord_apply (k : ℕ) (h : S128x8x128.Slices ![0, k, 0] S128x1x128) (u : FVec Ideal S128x8x128 .bf16)
    (a : Fin 128) (r : Fin 16) (o : Fin 128) (k' : Fin 8) (hk : k'.val = k) :
    qCoord k h u (ix3 a r o) = u (ix3 a k' o) := by
  unfold qCoord
  refine (broadcastTo_a1b_acb_apply _ _ a r o).trans ?_
  refine (shapeCast_ab_a1b_apply _ _ a 0 o).trans ?_
  refine (shapeCast_a1b_ab_apply _ _ a o).trans ?_
  exact slice3_axis1_apply k u h a 0 o k' (by rw [hk]; rfl)

/-- The key side of coordinate `k` at (a, r, o) is the key slice at (r, k, o). -/
theorem kCoord_apply (k : ℕ) (h : S16x8x128.Slices ![0, k, 0] S16x1x128) (w : FVec Ideal S16x8x128 .bf16)
    (a : Fin 128) (r : Fin 16) (o : Fin 128) (k' : Fin 8) (hk : k'.val = k) :
    kCoord k h w (ix3 a r o) = w (ix3 r k' o) := by
  unfold kCoord
  refine (broadcastTo_1cb_acb_apply _ _ a r o).trans ?_
  refine (shapeCast_ab_1ab_apply _ _ 0 r o).trans ?_
  refine (shapeCast_a1b_ab_apply _ _ r o).trans ?_
  exact slice3_axis1_apply k w h r 0 o k' (by rw [hk]; rfl)

/-- One coordinate's term at (a, r, o): |u(a, k, o) − w(r, k, o)|, the format changes being the identity on the
    extended reals. -/
theorem coordDiff_apply (k : ℕ) (hq : S128x8x128.Slices ![0, k, 0] S128x1x128) (hk : S16x8x128.Slices ![0, k, 0] S16x1x128)
    (u : FVec Ideal S128x8x128 .bf16) (w : FVec Ideal S16x8x128 .bf16) (a : Fin 128) (r : Fin 16) (o : Fin 128)
    (k' : Fin 8) (hk' : k'.val = k) :
    coordDiff k hq hk u w (ix3 a r o) = Cert.Minibatch.absDiff (u (ix3 a k' o)) (w (ix3 r k' o)) := by
  show Cert.Minibatch.absDiff (qCoord k hq u (ix3 a r o)) (kCoord k hk w (ix3 a r o)) = _
  rw [qCoord_apply k hq u a r o k' hk', kCoord_apply k hk w a r o k' hk']

/-- The distance block at (a, r, o): the sum over the 8 coordinates of |u(a, k, o) − w(r, k, o)|. -/
theorem l1Dist_apply (u : FVec Ideal S128x8x128 .bf16) (w : FVec Ideal S16x8x128 .bf16) (a : Fin 128) (r : Fin 16) (o : Fin 128) :
    l1Dist u w (ix3 a r o) = ∑ k : Fin 8, Cert.Minibatch.absDiff (u (ix3 a k o)) (w (ix3 r k o)) := by
  unfold l1Dist
  simp only [addf_apply, broadcast_apply]
  rw [coordDiff_apply 0 _ _ u w a r o 0 rfl, coordDiff_apply 1 _ _ u w a r o 1 rfl, coordDiff_apply 2 _ _ u w a r o 2 rfl,
    coordDiff_apply 3 _ _ u w a r o 3 rfl, coordDiff_apply 4 _ _ u w a r o 4 rfl, coordDiff_apply 5 _ _ u w a r o 5 rfl,
    coordDiff_apply 6 _ _ u w a r o 6 rfl, coordDiff_apply 7 _ _ u w a r o 7 rfl]
  rw [show (Scalar.ofBits (F := Ideal) .f32 0x00000000#32 : EReal) = 0 from Ideal.ofBits_zero_f32, zero_add, Fin.sum_univ_eight]

/-- A lane sum over the 16 keys, read at (a, o). -/
theorem laneSum_apply (src : FVec Ideal S128x16x128 .f32) (h : S128x16x128.Reduces [1] S128x128) (hφ : FKind.Formats .f32)
    (hacc : (0x00000000#32 : BitVec 32) = 0x00000000#32) (a o : Fin 128) :
    multiReduction .add [1] S128x128 src 0x00000000#32 h hφ hacc (ix2 a o) = ∑ r : Fin 16, src (ix3 a r o) := by
  refine (Ideal.multiReduction_add_single src 0x00000000#32 h hφ hacc (ix2 a o)).trans ?_
  show ∑ r : Fin 16, src (h.lift (ix2 a o) r) = _
  refine Finset.sum_congr rfl fun r _ => congrArg src (funext fun d => Fin.ext ?_)
  match d with
  | ⟨0, _⟩ => rfl
  | ⟨1, _⟩ => rfl
  | ⟨2, _⟩ => rfl

/-- One key slice's share at (a, o): the sum over its 16 keys of exp(−distance). -/
theorem sliceSum_apply (u : FVec Ideal S128x8x128 .bf16) (w : FVec Ideal S16x8x128 .bf16) (a o : Fin 128) :
    sliceSum u w (ix2 a o)
      = ∑ r : Fin 16, Ideal.exp (-(∑ k : Fin 8, Cert.Minibatch.absDiff (u (ix3 a k o)) (w (ix3 r k o)))) := by
  unfold sliceSum
  refine (laneSum_apply _ _ _ _ a o).trans ?_
  refine Finset.sum_congr rfl fun r _ => ?_
  show Ideal.exp (Ideal.ofBits .f32 0x00000000#32 - l1Dist u w (ix3 a r o)) = _
  rw [l1Dist_apply, Ideal.ofBits_zero_f32, zero_sub]

end AtIdeal

/-! ## The whole accumulator at an index -/

section Whole

/-- The query block narrowed to the 16-bit format is, on the extended reals, the block itself. -/
theorem k1_pay4_apply (v3 : Vec Ideal S128x8x128 .f32) (i : S128x8x128.Idx) : k1_pay4 (F := Ideal) v3 i = v3 i := by
  unfold k1_pay4
  exact congrFun (shapeCast_self v3 _) i

/-- A key slice narrowed to the 16-bit format is, on the extended reals, the slice itself. -/
theorem k1_pay6_apply (v : Vec Ideal S16x8x128 .f32) (i : S16x8x128.Idx) : k1_pay6 (F := Ideal) v i = v i := by
  unfold k1_pay6
  exact congrFun (shapeCast_self v _) i

/-- One slice's share at (a, o), over the loaded blocks. -/
theorem sliceSum_loaded_apply (v3 : Vec Ideal S128x8x128 .f32) (v : Vec Ideal S16x8x128 .f32) (a o : Fin 128) :
    sliceSum (k1_pay4 (F := Ideal) v3) (k1_pay6 (F := Ideal) v) (ix2 a o)
      = ∑ r : Fin 16, Ideal.exp (-(∑ k : Fin 8, Cert.Minibatch.absDiff (v3 (ix3 a k o)) (v (ix3 r k o)))) := by
  rw [sliceSum_apply]
  simp only [k1_pay4_apply, k1_pay6_apply]

/-- The stored accumulator at (a, o): the loaded accumulator there plus, over the eight key slices `c` and the 16 keys
    `r` of each, exp(−Σ_k |q(a, k, o) − y_c(r, k, o)|). -/
theorem accOut_apply (v3 : Vec Ideal S128x8x128 .f32) (v10 v118 v226 v334 v442 v550 v658 v766 : Vec Ideal S16x8x128 .f32)
    (v871 : Vec Ideal S128x128 .f32) (a o : Fin 128) :
    accOut (F := Ideal) v3 v10 v118 v226 v334 v442 v550 v658 v766 v871 (ix2 a o)
      = v871 (ix2 a o) + ∑ c : Fin 8, ∑ r : Fin 16, Ideal.exp (-(∑ k : Fin 8,
          Cert.Minibatch.absDiff (v3 (ix3 a k o)) ((![v10, v118, v226, v334, v442, v550, v658, v766] c) (ix3 r k o)))) := by
  rw [accOut_eq_fold, carry6_eq, carry5_eq, carry4_eq, carry3_eq, carry2_eq, carry1_eq, carry0_eq]
  unfold k1_pay1
  refine (congrFun (shapeCast_self _ _) (ix2 a o)).trans ?_
  simp only [addf_apply, sliceSum_loaded_apply]
  rw [show k1_pay5 (F := Ideal) (ix2 a o) = 0 from Ideal.ofBits_zero_f32, zero_add, Fin.sum_univ_eight]
  rfl

end Whole

/-! ## The other pieces: the final subtraction, the zero block, and the accumulator of a first visit -/

section Others

/-- The final piece subtracts the float 1 from the accumulator, entry by entry. -/
theorem k1_pay2_apply (v881 : Vec Ideal S128x128 .f32) (a o : Fin 128) :
    k1_pay2 (F := Ideal) v881 (ix2 a o) = v881 (ix2 a o) - Cert.Minibatch.one := rfl

/-- The block the first visit stores into the accumulator is zero everywhere. -/
theorem k1_pay3_apply (a o : Fin 128) : k1_pay3 (F := Ideal) (ix2 a o) = 0 := by
  unfold k1_pay3
  refine (congrFun (shapeCast_self _ _) (ix2 a o)).trans ?_
  exact Ideal.ofBits_zero_f32

/-- On a first visit the loaded accumulator is the zero block just stored, so the stored accumulator at (a, o) is the
    sum alone: over the eight key slices `c` and the 16 keys `r` of each, exp(−Σ_k |q(a, k, o) − y_c(r, k, o)|). -/
theorem accOut_cleared_apply (v3 : Vec Ideal S128x8x128 .f32) (v10 v118 v226 v334 v442 v550 v658 v766 : Vec Ideal S16x8x128 .f32)
    (a o : Fin 128) :
    accOut (F := Ideal) v3 v10 v118 v226 v334 v442 v550 v658 v766 (k1_pay3 (F := Ideal)) (ix2 a o)
      = ∑ c : Fin 8, ∑ r : Fin 16, Ideal.exp (-(∑ k : Fin 8,
          Cert.Minibatch.absDiff (v3 (ix3 a k o)) ((![v10, v118, v226, v334, v442, v550, v658, v766] c) (ix3 r k o)))) := by
  rw [accOut_apply, k1_pay3_apply, zero_add]

end Others

end Cert.KernelIdeal.Hand

end
-- ==== Proof.KI.Blocks1.lean ====
/-
  The second region's blocks, read at an index.

  The region's grid is 2 × 2 and its point t = 2·i + j pairs query block i = t / 2 with key block j = t % 2.  The
  query window and the key window both cut the projected samples (256 × 8 × 128) into blocks of 128 samples: the
  query window's block at t starts at sample 128·(t / 2), the key window's at sample 128·(t % 2).  The third window
  cuts the input rows (256 × 1024) the same way, by query block.  An element of a block sits in the array, on each
  axis, at the block's index times the block's extent plus its own coordinate.

  Inside a body the key block is read in eight slices of 16 samples: the slice at row offset n, read at (r, k, o), is
  the block at (n + r, k, o).
-/
import proofs.«106793_j66391604461943_2_alg».proof.Proof.KI.Body1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The index maps over the grid -/

/-- The three input windows' block indices at every point of the 2 × 2 grid: the query window and the row window
    move with t / 2, the key window with t % 2, and none moves on another axis. -/
theorem idx_facts1 : ∀ t : Fin cfg1.N,
    win1_0.index t (0 : Fin 3) = t.val / 2 ∧ win1_0.index t (1 : Fin 3) = 0 ∧ win1_0.index t (2 : Fin 3) = 0
    ∧ win1_1.index t (0 : Fin 3) = t.val % 2 ∧ win1_1.index t (1 : Fin 3) = 0 ∧ win1_1.index t (2 : Fin 3) = 0
    ∧ win1_2.index t (0 : Fin 2) = t.val / 2 ∧ win1_2.index t (1 : Fin 2) = 0 :=
  (by decide +kernel : ∀ t : Fin grid1.N, _)

/-- The grid has four points. -/
theorem point_lt (t : Fin cfg1.N) : t.val < 4 := lt_of_lt_of_eq t.isLt N_1

section
variable (V : (c : Dev nD) → (b : Ref sig .tc) → Buf (Elt F) ((c : Thread nD τ).loc b))

/-! ## The windows' blocks at an index -/

/-- The query block at point t, at (a, k, o): the projected samples at sample 128·(t / 2) + a. -/
theorem iblk1_0_apply (c : Dev nD) (t : Fin cfg1.N) (a : Fin 128) (k : Fin 8) (o : Fin 128) :
    iblk1 V c 0 t (ix3 a k o : S128x8x128.Idx)
      = V c main_v3 (ix3 (⟨128 * (t.val / 2) + a.val, by have := point_lt t; omega⟩ : Fin 256) k o : S256x8x128.Idx) := by
  obtain ⟨e0, e1, e2, -⟩ := idx_facts1 t
  show V c main_v3 (((cfg1.win 0).blk t).view.emb (ix3 a k o : S128x8x128.Idx)) = _
  refine congrArg (V c main_v3) (funext fun ax => Fin.ext ?_)
  match ax with
  | ⟨0, _⟩ => show win1_0.index t (0 : Fin 3) * 128 + 1 * a.val = 128 * (t.val / 2) + a.val; omega
  | ⟨1, _⟩ => show win1_0.index t (1 : Fin 3) * 8 + 1 * k.val = k.val; omega
  | ⟨2, _⟩ => show win1_0.index t (2 : Fin 3) * 128 + 1 * o.val = o.val; omega

/-- The key block at point t, at (a, k, o): the projected samples at sample 128·(t % 2) + a. -/
theorem iblk1_1_apply (c : Dev nD) (t : Fin cfg1.N) (a : Fin 128) (k : Fin 8) (o : Fin 128) :
    iblk1 V c 1 t (ix3 a k o : S128x8x128.Idx)
      = V c main_v3 (ix3 (⟨128 * (t.val % 2) + a.val, by omega⟩ : Fin 256) k o : S256x8x128.Idx) := by
  obtain ⟨-, -, -, e0, e1, e2, -⟩ := idx_facts1 t
  show V c main_v3 (((cfg1.win 1).blk t).view.emb (ix3 a k o : S128x8x128.Idx)) = _
  refine congrArg (V c main_v3) (funext fun ax => Fin.ext ?_)
  match ax with
  | ⟨0, _⟩ => show win1_1.index t (0 : Fin 3) * 128 + 1 * a.val = 128 * (t.val % 2) + a.val; omega
  | ⟨1, _⟩ => show win1_1.index t (1 : Fin 3) * 8 + 1 * k.val = k.val; omega
  | ⟨2, _⟩ => show win1_1.index t (2 : Fin 3) * 128 + 1 * o.val = o.val; omega

/-- The block of input rows at point t, at (a, f): the input at row 128·(t / 2) + a. -/
theorem iblk1_2_apply (c : Dev nD) (t : Fin cfg1.N) (a : Fin 128) (f : Fin 1024) :
    iblk1 V c 2 t (ix2 a f : S128x1024.Idx)
      = V c main_arg0 (ix2 (⟨128 * (t.val / 2) + a.val, by have := point_lt t; omega⟩ : Fin 256) f : S256x1024.Idx) := by
  obtain ⟨-, -, -, -, -, -, e0, e1⟩ := idx_facts1 t
  show V c main_arg0 (((cfg1.win 2).blk t).view.emb (ix2 a f : S128x1024.Idx)) = _
  refine congrArg (V c main_arg0) (funext fun ax => Fin.ext ?_)
  match ax with
  | ⟨0, _⟩ => show win1_2.index t (0 : Fin 2) * 128 + 1 * a.val = 128 * (t.val / 2) + a.val; omega
  | ⟨1, _⟩ => show win1_2.index t (1 : Fin 2) * 1024 + 1 * f.val = f.val; omega

end

/-! ## A slice of 16 key samples -/

/-- The 16 samples from row n of a block of 128, read at (r, k, o): the block at (n + r, k, o) — whatever the proof
    that the slice lies inside the block. -/
theorem ld_keySlice (n : ℕ) (hn : n + 16 ≤ 128) (x1 : Vec F S128x8x128 .f32)
    (h : ∀ a, (![n, 0, 0] : Fin 3 → ℕ) a + S16x8x128.size a ≤ S128x8x128.size a) (r : Fin 16) (k : Fin 8) (o : Fin 128) :
    View.ld x1 (Rect.unit (s := S128x8x128) ![n, 0, 0] S16x8x128.size h) (ix3 r k o : S16x8x128.Idx)
      = x1 (ix3 (⟨n + r.val, by omega⟩ : Fin 128) k o) := by
  show x1 ((Rect.unit (s := S128x8x128) ![n, 0, 0] S16x8x128.size h).emb (ix3 r k o : S16x8x128.Idx)) = _
  refine congrArg x1 (funext fun ax => Fin.ext ?_)
  match ax with
  | ⟨0, _⟩ => show n + 1 * r.val = n + r.val; omega
  | ⟨1, _⟩ => show 0 + 1 * k.val = k.val; omega
  | ⟨2, _⟩ => show 0 + 1 * o.val = o.val; omega

end Cert.KernelIdeal.Hand

end
-- ==== Proof.KI.StepValue.lean ====
/-
  One visit of the pairwise body, read at an index on the extended reals.

  A visit takes a block of 128 query samples, a block of 128 key samples and the accumulator it finds, and leaves
  the accumulator plus, for every query a and feature o, the sum over the 128 keys of exp(−distance), the distance
  being the L1 distance over the 8 coordinates.  The body reads the key block in 8 slices of 16 samples: key number
  16·c + r of the block is place r of slice c.  On a first visit the accumulator found is the zero block.

  The finished output block has the input rows in its first 1024 columns and the accumulator minus one in its last
  128: the later store covers columns 1024 … 1151, the earlier one columns 0 … 1023, and the two do not meet.
-/
import proofs.«106793_j66391604461943_2_alg».proof.Proof.KI.Pieces
import proofs.«106793_j66391604461943_2_alg».proof.Proof.KI.AccValue
import proofs.«106793_j66391604461943_2_alg».proof.Proof.KI.Blocks1
import proofs.«106793_j66391604461943_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Place r of slice c of the key block is the block's key 16·c + r. -/
theorem keySlices_apply (x1 : Vec Ideal S128x8x128 .f32) (c : Fin 8) (r : Fin 16) (k : Fin 8) (o : Fin 128) :
    (![View.ld x1 (keyRows 0 (by decide)), View.ld x1 (keyRows 16 (by decide)), View.ld x1 (keyRows 32 (by decide)),
        View.ld x1 (keyRows 48 (by decide)), View.ld x1 (keyRows 64 (by decide)), View.ld x1 (keyRows 80 (by decide)),
        View.ld x1 (keyRows 96 (by decide)), View.ld x1 (keyRows 112 (by decide))] c) (ix3 r k o : S16x8x128.Idx)
      = x1 (ix3 (⟨16 * c.val + r.val, by omega⟩ : Fin 128) k o) := by
  fin_cases c
  · exact ld_keySlice 0 (by omega) x1 _ r k o
  · exact ld_keySlice 16 (by omega) x1 _ r k o
  · exact ld_keySlice 32 (by omega) x1 _ r k o
  · exact ld_keySlice 48 (by omega) x1 _ r k o
  · exact ld_keySlice 64 (by omega) x1 _ r k o
  · exact ld_keySlice 80 (by omega) x1 _ r k o
  · exact ld_keySlice 96 (by omega) x1 _ r k o
  · exact ld_keySlice 112 (by omega) x1 _ r k o

/-- The accumulator after a visit at (a, o): what was found there plus the sum over the key block's 128 samples,
    slice by slice, of exp(−Σ_k |q(a, k, o) − y(16·c + r, k, o)|). -/
theorem accStep_apply (x0 x1 : Vec Ideal S128x8x128 .f32) (acc : Vec Ideal S128x128 .f32) (a o : Fin 128) :
    accStep (F := Ideal) x0 x1 acc (ix2 a o)
      = acc (ix2 a o) + ∑ c : Fin 8, ∑ r : Fin 16, Ideal.exp (-(∑ k : Fin 8,
          Cert.Minibatch.absDiff (x0 (ix3 a k o)) (x1 (ix3 (⟨16 * c.val + r.val, by omega⟩ : Fin 128) k o)))) := by
  unfold accStep
  refine (accOut_apply x0 _ _ _ _ _ _ _ _ acc a o).trans ?_
  refine congrArg (acc (ix2 a o) + ·) (Finset.sum_congr rfl fun c _ => Finset.sum_congr rfl fun r _ => ?_)
  refine congrArg (fun v => Ideal.exp (-v)) (Finset.sum_congr rfl fun k _ => ?_)
  exact congrArg (Cert.Minibatch.absDiff (x0 (ix3 a k o))) (keySlices_apply x1 c r k o)

/-- On a first visit the accumulator found is the zero block, and the visit leaves the sum alone. -/
theorem accStep_cleared_apply (x0 x1 : Vec Ideal S128x8x128 .f32) (a o : Fin 128) :
    accStep (F := Ideal) x0 x1 (k1_pay3 (F := Ideal)) (ix2 a o)
      = ∑ c : Fin 8, ∑ r : Fin 16, Ideal.exp (-(∑ k : Fin 8,
          Cert.Minibatch.absDiff (x0 (ix3 a k o)) (x1 (ix3 (⟨16 * c.val + r.val, by omega⟩ : Fin 128) k o)))) := by
  rw [accStep_apply, k1_pay3_apply, zero_add]

/-- The finished output block at (a, q): the input row in the first 1024 columns, the accumulator minus one in the
    last 128. -/
theorem outBlock_apply (x2 : Vec Ideal S128x1024 .f32) (acc : FVec Ideal S128x128 .f32) (a : Fin 128) (q : Fin 1152) :
    View.canon (Val := Elt Ideal) (s := S128x1152) (e := .f32)
        [⟨Rect.unit (s := S128x1152) ![0, 1024] S128x128.size inb_S128x1152_S128x128_0_1024, k1_pay2 (F := Ideal) acc⟩,
          ⟨Rect.unit (s := S128x1152) ![0, 0] S128x1024.size inb_S128x1152_S128x1024_0_0, x2⟩] (ix2 a q)
      = if h : q.val < 1024 then x2 (ix2 a ⟨q.val, h⟩) else acc (ix2 a ⟨q.val - 1024, by omega⟩) - Cert.Minibatch.one := by
  by_cases h : q.val < 1024
  · rw [dif_pos h]
    refine (View.canon_cons_of_not_mem (Val := Elt Ideal) (⟨(Rect.unit (s := S128x1152) ![0, 1024] S128x128.size inb_S128x1152_S128x128_0_1024), k1_pay2 (F := Ideal) acc⟩ : View.Piece (Elt Ideal) S128x1152 .f32)
      [⟨(Rect.unit (s := S128x1152) ![0, 0] S128x1024.size inb_S128x1152_S128x1024_0_0), x2⟩] (y := (ix2 a q : S128x1152.Idx)) ?_).trans ?_
    · rw [Rect.mem_set_unit]
      intro hm
      have h1 : 1024 ≤ q.val := (hm (1 : Fin 2)).1
      omega
    · have hy : (ix2 a q : S128x1152.Idx)
          = (Rect.unit (s := S128x1152) ![0, 0] S128x1024.size inb_S128x1152_S128x1024_0_0).emb (ix2 a ⟨q.val, h⟩ : S128x1024.Idx) :=
        funext fun ax => Fin.ext (by
          match ax with
          | ⟨0, _⟩ => show a.val = 0 + 1 * a.val; omega
          | ⟨1, _⟩ => show q.val = 0 + 1 * q.val; omega)
      exact (congrArg (View.canon (Val := Elt Ideal) (s := S128x1152) (e := .f32) [⟨(Rect.unit (s := S128x1152) ![0, 0] S128x1024.size inb_S128x1152_S128x1024_0_0), x2⟩]) hy).trans
        (View.canon_cons_emb (Val := Elt Ideal) (Rect.unit (s := S128x1152) ![0, 0] S128x1024.size inb_S128x1152_S128x1024_0_0) x2 [] (ix2 a ⟨q.val, h⟩ : S128x1024.Idx))
  · rw [dif_neg h]
    have hy : (ix2 a q : S128x1152.Idx)
        = (Rect.unit (s := S128x1152) ![0, 1024] S128x128.size inb_S128x1152_S128x128_0_1024).emb
            (ix2 a (⟨q.val - 1024, by omega⟩ : Fin 128) : S128x128.Idx) :=
      funext fun ax => Fin.ext (by
        match ax with
        | ⟨0, _⟩ => show a.val = 0 + 1 * a.val; omega
        | ⟨1, _⟩ => show q.val = 1024 + 1 * (q.val - 1024); omega)
    refine (congrArg (View.canon (Val := Elt Ideal) (s := S128x1152) (e := .f32)
        [⟨(Rect.unit (s := S128x1152) ![0, 1024] S128x128.size inb_S128x1152_S128x128_0_1024), k1_pay2 (F := Ideal) acc⟩, ⟨(Rect.unit (s := S128x1152) ![0, 0] S128x1024.size inb_S128x1152_S128x1024_0_0), x2⟩]) hy).trans ?_
    refine (View.canon_cons_emb (Val := Elt Ideal) (Rect.unit (s := S128x1152) ![0, 1024] S128x128.size inb_S128x1152_S128x128_0_1024) (k1_pay2 (F := Ideal) acc) [⟨(Rect.unit (s := S128x1152) ![0, 0] S128x1024.size inb_S128x1152_S128x1024_0_0), x2⟩]
      (ix2 a (⟨q.val - 1024, by omega⟩ : Fin 128) : S128x128.Idx)).trans ?_
    exact k1_pay2_apply acc a _

end Cert.KernelIdeal.Hand

end
-- ==== Proof.FeatSplit.lean ====
/-
  The sum over all 256 samples, regrouped the way the kernel adds it.

  The 256 key samples come in two blocks of 128, and each block in 8 slices of 16.  Sample number j of the first
  block's slice c at place r is 16·c + r, of the second block's 128 + (16·c + r).  A sum over all samples is the sum
  over the first block's slices plus the sum over the second block's, in any additive commutative monoid — on the
  extended reals too, where no finiteness is needed to regroup a sum.
-/
import proofs.«106793_j66391604461943_2_alg».proof.Proof.Spec
import Mathlib.Algebra.BigOperators.Fin
import Mathlib.Logic.Equiv.Fin.Basic
import Mathlib.Data.Fintype.BigOperators

noncomputable section

namespace Cert.Minibatch

open Idealize.ShloMosaic Idealize.ShloMosaic.ValueIdx

/-- A sum over 128 = 8 · 16 consecutive places, slice by slice: place 16·c + r is place r of slice c. -/
theorem sum_slices {M : Type*} [AddCommMonoid M] (g : Fin 128 → M) :
    ∑ j : Fin 128, g j = ∑ c : Fin 8, ∑ r : Fin 16, g ⟨16 * c.val + r.val, by omega⟩ := by
  have h := Equiv.sum_comp (finProdFinEquiv (m := 8) (n := 16)) (g : Fin (8 * 16) → M)
  refine h.symm.trans ?_
  rw [Fintype.sum_prod_type]
  refine Finset.sum_congr rfl fun c _ => Finset.sum_congr rfl fun r _ => congrArg g (Fin.ext ?_)
  show r.val + 16 * c.val = 16 * c.val + r.val
  omega

/-- A sum over the 256 samples is the sum over the first block's 8 slices of 16 plus the sum over the second
    block's. -/
theorem sum_blocks (f : Fin 256 → EReal) :
    ∑ j : Fin 256, f j
      = (∑ c : Fin 8, ∑ r : Fin 16, f ⟨16 * c.val + r.val, by omega⟩)
        + (∑ c : Fin 8, ∑ r : Fin 16, f ⟨128 + (16 * c.val + r.val), by omega⟩) := by
  have h := Fin.sum_univ_add (a := 128) (b := 128) (f : Fin (128 + 128) → EReal)
  exact h.trans (congrArg₂ (· + ·) (sum_slices fun j => f (Fin.castAdd 128 j)) (sum_slices fun j => f (Fin.natAdd 128 j)))

/-- A sample's similarity feature, with the sum over the other samples split into the two key blocks' slices. -/
theorem feat_split (x : SX.Idx → EReal) (T : ST.Idx → EReal) (i : Fin 256) (o : Fin 128) :
    feat x T i o
      = ((∑ c : Fin 8, ∑ r : Fin 16, Ideal.exp (-(dist x T i ⟨16 * c.val + r.val, by omega⟩ o)))
          + (∑ c : Fin 8, ∑ r : Fin 16, Ideal.exp (-(dist x T i ⟨128 + (16 * c.val + r.val), by omega⟩ o)))) - one := by
  unfold feat
  rw [sum_blocks fun j => Ideal.exp (-(dist x T i j o))]

end Cert.Minibatch

end
-- ==== Proof.KI.OutOdd.lean ====
/-
  What a grid point of the second region leaves, read as mathematics.  With the region's entry contents holding
  the projected samples M (laid out sample × coordinate × feature) and the samples x, the point (i, 0) leaves in the
  accumulator, at (a, o), the sum over the FIRST 128 samples j of exp(−d(128·i + a, j, o)); the point (i, 1) adds the
  sum over the other 128, so the accumulator holds the sum over all 256 samples, and writes the output block: row a
  is sample 128·i + a followed by its 128 similarity features.  That is rows 128·i … 128·i + 127 of the specification.
-/
import proofs.«106793_j66391604461943_2_alg».proof.Proof.KI.StepValue
import proofs.«106793_j66391604461943_2_alg».proof.Proof.KI.Blocks1
import proofs.«106793_j66391604461943_2_alg».proof.Proof.FeatSplit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt Ideal) ((c : Thread nD τ).loc b)) (c : Dev nD)
  (x : Cert.Minibatch.SX.Idx → EReal) (T : Cert.Minibatch.ST.Idx → EReal)
  (hM : ∀ (b : Fin 256) (k : Fin 8) (o : Fin 128), V c main_v3 (ix3 b k o : S256x8x128.Idx) = Cert.Minibatch.proj x T b o k)
  (hX : ∀ (b : Fin 256) (f : Fin 1024), V c main_arg0 (ix2 b f : S256x1024.Idx) = x (ix2 b f))

include hM in
/-- At the point (i, j): the L1 distance the body computes between row `a` of the query block and row `n` of the key
    block is the distance of samples 128·i + a and 128·j + n. -/
theorem pair_term (t : Fin cfg1.N) (a n : Fin 128) (o : Fin 128) (i j : Fin 256)
    (hi : i.val = 128 * (t.val / 2) + a.val) (hj : j.val = 128 * (t.val % 2) + n.val) :
    ∑ k : Fin 8, Cert.Minibatch.absDiff (iblk1 V c 0 t (ix3 a k o : S128x8x128.Idx)) (iblk1 V c 1 t (ix3 n k o : S128x8x128.Idx))
      = Cert.Minibatch.dist x T i j o := by
  unfold Cert.Minibatch.dist
  refine Finset.sum_congr rfl fun k _ => ?_
  rw [iblk1_0_apply, iblk1_1_apply, hM, hM]
  rw [show (⟨128 * (t.val / 2) + a.val, by have := point_lt t; omega⟩ : Fin 256) = i from Fin.ext hi.symm,
    show (⟨128 * (t.val % 2) + n.val, by omega⟩ : Fin 256) = j from Fin.ext hj.symm]

include hM in
/-- After a point with j = 0 the accumulator holds the first key block's share of the similarity sum. -/
theorem acc_even (t : Fin cfg1.N) (h0 : t.val % 2 = 0) (a o : Fin 128) (i : Fin 256) (hi : i.val = 128 * (t.val / 2) + a.val) :
    (outsAt1 V c t.val t.isLt).2 (ix2 a o)
      = ∑ cc : Fin 8, ∑ r : Fin 16, Ideal.exp (-(Cert.Minibatch.dist x T i ⟨16 * cc.val + r.val, by omega⟩ o)) := by
  rw [outsAt1_A V c t h0]
  dsimp only
  rw [sout1_A_eq, accStep_cleared_apply]
  refine Finset.sum_congr rfl fun cc _ => Finset.sum_congr rfl fun r _ => ?_
  rw [pair_term V c x T hM t a ⟨16 * cc.val + r.val, by omega⟩ o i ⟨16 * cc.val + r.val, by omega⟩ hi (by show 16 * cc.val + r.val = 128 * (t.val % 2) + (16 * cc.val + r.val); omega)]

include hM in
/-- After the following point (j = 1) it holds the whole sum over the 256 samples. -/
theorem acc_odd (t : Fin cfg1.N) (h0 : ¬t.val % 2 = 0) (a o : Fin 128) (i : Fin 256) (hi : i.val = 128 * (t.val / 2) + a.val) :
    accStep (F := Ideal) (iblk1 V c 0 t) (iblk1 V c 1 t) (outsAt1 V c (t.val - 1) (Nat.lt_of_le_of_lt (Nat.sub_le _ _) t.isLt)).2 (ix2 a o)
      = (∑ cc : Fin 8, ∑ r : Fin 16, Ideal.exp (-(Cert.Minibatch.dist x T i ⟨16 * cc.val + r.val, by omega⟩ o)))
        + ∑ cc : Fin 8, ∑ r : Fin 16, Ideal.exp (-(Cert.Minibatch.dist x T i ⟨128 + (16 * cc.val + r.val), by omega⟩ o)) := by
  have hN := point_lt t
  rw [accStep_apply]
  have he := acc_even V c x T hM ⟨t.val - 1, Nat.lt_of_le_of_lt (Nat.sub_le _ _) t.isLt⟩ (by show (t.val - 1) % 2 = 0; omega) a o i
    (by show i.val = 128 * ((t.val - 1) / 2) + a.val; omega)
  rw [show (outsAt1 V c (t.val - 1) (Nat.lt_of_le_of_lt (Nat.sub_le _ _) t.isLt)).2 (ix2 a o) = _ from he]
  refine congrArg _ (Finset.sum_congr rfl fun cc _ => Finset.sum_congr rfl fun r _ => ?_)
  rw [pair_term V c x T hM t a ⟨16 * cc.val + r.val, by omega⟩ o i ⟨128 + (16 * cc.val + r.val), by omega⟩ hi (by show 128 + (16 * cc.val + r.val) = 128 * (t.val % 2) + (16 * cc.val + r.val); omega)]

include hM hX in
/-- What a point with j = 1 leaves in the output buffer is its block of rows of the specification. -/
theorem out_odd_of (t : Fin cfg1.N) (h0 : ¬t.val % 2 = 0) (a : Fin 128) (q : Fin 1152) :
    (outsAt1 V c t.val t.isLt).1 (ix2 a q)
      = Cert.Minibatch.result x T (ix2 ⟨128 * (t.val / 2) + a.val, by have := point_lt t; omega⟩ q) := by
  have hN := point_lt t
  rw [outsAt1_B V c t h0]
  dsimp only
  rw [out1_B_eq, outBlock_apply]
  split
  · rename_i h
    rw [iblk1_2_apply, hX]
    exact (Cert.Minibatch.result_left x T _ ⟨q.val, h⟩).symm
  · rename_i h
    rw [acc_odd V c x T hM t h0 a ⟨q.val - 1024, by omega⟩ ⟨128 * (t.val / 2) + a.val, by omega⟩ rfl]
    rw [← Cert.Minibatch.feat_split]
    rw [← Cert.Minibatch.result_right x T ⟨128 * (t.val / 2) + a.val, by omega⟩ ⟨q.val - 1024, by omega⟩]
    refine congrArg _ (congrArg _ (Fin.ext ?_))
    show 1024 + (q.val - 1024) = q.val
    omega

end

end Cert.KernelIdeal.Hand

end
-- ==== Proof.KI.Val0.lean ====
/-
  The first region's value and the host reshapes of the kernel program, read index by index on the extended reals.

  The first region multiplies the 256 × 1024 samples by a 1024 × 1024 matrix in one grid point: both operands are
  fetched whole, the body narrows them (the identity on the extended reals), multiplies into a zero accumulator and
  stores the product whole.  So entry (b, n) of what it leaves is Σ_f x(b, f) · W(f, n).

  The host prepares W from the tensor T (1024 × 128 × 8) by exchanging its last two axes and flattening them:
  W(f, 128·k + o) = T(f, o, k).  After the region the product is folded to 256 × 8 × 128: entry (b, k, o) is the
  product's entry (b, 128·k + o).
-/
import proofs.«106793_j66391604461943_2_alg».proof.Proof.KI.Body0
import proofs.«106793_j66391604461943_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The body's product at an index -/

/-- The left operand's index at output (b, n) and contraction coordinate q keeps the row … -/
theorem lhs_row (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
/-- … and takes q as its column; -/
theorem lhs_col (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- the right operand's takes q as its row … -/
theorem rhs_row (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- … and keeps the column. -/
theorem rhs_col (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The body's payload at (b, n): the narrowings and the cast to the same shape are the identity, the product into
    the zero accumulator is the sum over the contracted axis. -/
theorem k0_pay1_apply (v0 : Vec Ideal S256x1024 .f32) (v2 : Vec Ideal S1024x1024 .f32) (b : Fin 256) (n : Fin 1024) :
    k0_pay1 (F := Ideal) v0 v2 (ix2 b n) = ∑ f : Fin 1024, v0 (ix2 b f) * v2 (ix2 f n) := by
  unfold k0_pay1
  simp only [matmul]
  rw [Ideal.matmul_constant_zero_apply,
    ← Equiv.sum_comp (contrEquiv1 dot_S256x1024_S1024x1024_S256x1024_1_0_0_1_n_n 1024 rfl rfl).symm]
  refine Finset.sum_congr rfl fun f _ => ?_
  have hk := contrEquiv1_symm_val dot_S256x1024_S1024x1024_S256x1024_1_0_0_1_n_n 1024 rfl rfl f
  have el : dot_S256x1024_S1024x1024_S256x1024_1_0_0_1_n_n.lhsIdx (ix2 b n)
      ((contrEquiv1 dot_S256x1024_S1024x1024_S256x1024_1_0_0_1_n_n 1024 rfl rfl).symm f) = ix2 b f :=
    funext fun a => Fin.ext (by
      match a with
      | ⟨0, _⟩ => exact lhs_row _ _
      | ⟨1, _⟩ => exact (lhs_col _ _).trans hk)
  have er : dot_S256x1024_S1024x1024_S256x1024_1_0_0_1_n_n.rhsIdx (ix2 b n)
      ((contrEquiv1 dot_S256x1024_S1024x1024_S256x1024_1_0_0_1_n_n 1024 rfl rfl).symm f) = ix2 f n :=
    funext fun a => Fin.ext (by
      match a with
      | ⟨0, _⟩ => exact (rhs_row _ _).trans hk
      | ⟨1, _⟩ => exact rhs_col _ _)
  rw [el, er, truncf_apply, truncf_apply, shapeCast_self]

/-- The offsets of the body's two whole-buffer rectangles are zero. -/
theorem zero_off : (![0, 0] : Fin 2 → Nat) = fun _ => 0 := funext fun a => by fin_cases a <;> rfl

/-- What the body leaves in the output buffer, at (b, n): its one store covers the buffer and its loads read the
    whole input buffers. -/
theorem out0_2_apply (x0 : Vec Ideal S256x1024 .f32) (x1 : Vec Ideal S1024x1024 .f32) (b : Fin 256) (n : Fin 1024) :
    out0_2 (F := Ideal) x0 x1 (ix2 b n) = ∑ f : Fin 1024, x0 (ix2 b f) * x1 (ix2 f n) := by
  unfold out0_2
  rw [View.canon_unit_zero zero_off]
  simp only [View.ld_unit_zero (S := S256x1024) zero_off, View.ld_unit_zero (S := S1024x1024) zero_off]
  exact k0_pay1_apply x0 x1 b n

/-! ## The host's reshapes at an index -/

/-- The matrix the host hands the first region: T with its last two axes exchanged, then flattened. -/
theorem hostT_apply (T : FVec Ideal S1024x128x8 .f32) (f : Fin 1024) (k : Fin 8) (o : Fin 128) :
    shapeCast S1024x1024 (transpose S1024x8x128 [0, 2, 1] T transposes_S1024x128x8_S1024x8x128_0_2_1)
      shapeCasts_S1024x8x128_S1024x1024 (ix2 f ⟨k.val * 128 + o.val, by omega⟩) = T (ix3 f o k) := by
  rw [shapeCast_apply _ shapeCasts_S1024x8x128_S1024x1024 _ (ix3 f k o) (by
    rw [Shape.rowMajor_val_three, Shape.rowMajor_val_two]
    show (f.val * 8 + k.val) * 128 + o.val = f.val * 1024 + (k.val * 128 + o.val); omega)]
  exact transpose_apply [0, 2, 1] T transposes_S1024x128x8_S1024x8x128_0_2_1 (ix3 f k o) (ix3 f o k) (fun a => by
    match a with
    | ⟨0, _⟩ => rfl
    | ⟨1, _⟩ => rfl
    | ⟨2, _⟩ => rfl)

/-- The product folded to 256 × 8 × 128. -/
theorem reshapeM_apply (M : FVec Ideal S256x1024 .f32) (b : Fin 256) (k : Fin 8) (o : Fin 128) :
    shapeCast S256x8x128 M shapeCasts_S256x1024_S256x8x128 (ix3 b k o) = M (ix2 b ⟨k.val * 128 + o.val, by omega⟩) :=
  shapeCast_apply M shapeCasts_S256x1024_S256x8x128 (ix3 b k o) _ (by
    rw [Shape.rowMajor_val_two, Shape.rowMajor_val_three]
    show b.val * 1024 + (k.val * 128 + o.val) = (b.val * 8 + k.val) * 128 + o.val; omega)

/-! ## The first region's result array -/

/-- Σ_f a(b, f) · w(f, n): entry (b, n) of the product of a 256 × 1024 and a 1024 × 1024 array. -/
def matProd (a : S256x1024.Idx → EReal) (w : S1024x1024.Idx → EReal) (b : Fin 256) (n : Fin 1024) : EReal :=
  ∑ f : Fin 1024, a (ix2 b f) * w (ix2 f n)

theorem matProd_def (a : S256x1024.Idx → EReal) (w : S1024x1024.Idx → EReal) (b : Fin 256) (n : Fin 1024) :
    matProd a w b n = ∑ f : Fin 1024, a (ix2 b f) * w (ix2 f n) := rfl

/-- What the body leaves, as one function of its two input blocks. -/
theorem out0_2_eq (x0 : Vec Ideal S256x1024 .f32) (x1 : Vec Ideal S1024x1024 .f32) :
    out0_2 (F := Ideal) x0 x1 = fun i => matProd x0 x1 (i 0) (i 1) :=
  funext fun i => (congrArg (out0_2 (F := Ideal) x0 x1) (eq_ix2 i)).trans (out0_2_apply x0 x1 (i 0) (i 1))

section
open Idealize.ShloMosaic.TcCoe
open Idealize.ShloMosaic.Pipeline (Dat)

-- the TensorCore's buffer contents when the region is entered
variable (V : (c : Dev nD) → (b : Ref sig .tc) → Buf (Elt Ideal) ((c : Thread nD τ).loc b))

/-- The grid's one point places every window's block at the array's origin. -/
theorem origin0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the one point writes back is the product of the two arrays as the region finds them, read through the
    output window's block. -/
theorem flushed0_eq (c : Dev nD) (t : Fin cfg0.N) :
    (dat0 (F := Ideal) V c).flushed 2 t
      = ((cfg0.win 2).blk t).view.read (Elt Ideal) (fun i => matProd (V c main_arg0) (V c main_v1) (i 0) (i 1)) := by
  show (cfg0.win 2).cut (grid0.coords t) ((dat0 (F := Ideal) V c).after 2 t) = _
  rw [after0_2]
  obtain ⟨e0, e1, e2, e3, e4, e5⟩ := origin0 t
  funext j
  refine (congrFun (out0_2_eq (iblk0 V c 0 t) (iblk0 V c 1 t)) j).trans ?_
  show matProd (iblk0 V c 0 t) (iblk0 V c 1 t) (j 0) (j 1)
    = matProd (V c main_arg0) (V c main_v1) ((((cfg0.win 2).blk t).view.emb j) 0) ((((cfg0.win 2).blk t).view.emb j) 1)
  unfold matProd
  refine Finset.sum_congr rfl fun f _ => ?_
  -- each input block is read where the output's block sits: all three at the origin
  have h0 : iblk0 V c 0 t (ix2 (j 0) f) = V c main_arg0 (ix2 ((((cfg0.win 2).blk t).view.emb j) 0) f) := by
    show V c main_arg0 (((cfg0.win 0).blk t).view.emb (ix2 (j 0) f)) = _
    refine congrArg (V c main_arg0) (funext fun a => Fin.ext ?_)
    match a with
    | ⟨0, _⟩ =>
      show win0_0.index t (0 : Fin 2) * 256 + 1 * (j 0).val = win0_2.index t (0 : Fin 2) * 256 + 1 * (j 0).val
      omega
    | ⟨1, _⟩ => show win0_0.index t (1 : Fin 2) * 1024 + 1 * f.val = f.val; omega
  have h1 : iblk0 V c 1 t (ix2 f (j 1)) = V c main_v1 (ix2 f ((((cfg0.win 2).blk t).view.emb j) 1)) := by
    show V c main_v1 (((cfg0.win 1).blk t).view.emb (ix2 f (j 1))) = _
    refine congrArg (V c main_v1) (funext fun a => Fin.ext ?_)
    match a with
    | ⟨0, _⟩ => show win0_1.index t (0 : Fin 2) * 1024 + 1 * f.val = f.val; omega
    | ⟨1, _⟩ =>
      show win0_1.index t (1 : Fin 2) * 1024 + 1 * (j 1).val = win0_2.index t (1 : Fin 2) * 1024 + 1 * (j 1).val
      omega
  exact congrArg₂ (· * ·) h0 h1

/-- Every index of the result array is in the one point's block: the block is the whole array. -/
theorem cover0 (i : S256x1024.Idx) :
    ∃ t : Fin cfg0.N, (cfg0.win 2).flush t = true ∧ i ∈ ((cfg0.win 2).blk t).view.set := by
  refine ⟨t0_0, flush0_2 t0_0, ?_⟩
  obtain ⟨e0, e1, e2, e3, e4, e5⟩ := origin0 t0_0
  show i ∈ ((View.whole main_v2).slice (win0_2.rect t0_0)).set
  rw [View.set_slice_whole, Rect.mem_set_unit]
  intro a
  match a with
  | ⟨0, _⟩ =>
    show win0_2.index t0_0 (0 : Fin 2) * 256 ≤ (i 0).val ∧ (i 0).val < win0_2.index t0_0 (0 : Fin 2) * 256 + 256
    have := idx2_lt0 i; omega
  | ⟨1, _⟩ =>
    show win0_2.index t0_0 (1 : Fin 2) * 1024 ≤ (i 1).val ∧ (i 1).val < win0_2.index t0_0 (1 : Fin 2) * 1024 + 1024
    have := idx2_lt1 i; omega

/-- After the region its result array holds the product of the two arrays as the region finds them. -/
theorem arrAt0_eq (c : Dev nD) :
    (dat0 (F := Ideal) V c).arrAt 2 cfg0.N = fun i => matProd (V c main_arg0) (V c main_v1) (i 0) (i 1) :=
  (dat0 (F := Ideal) V c).arrAt_eq_of_cover 2 _ (fun t _ => flushed0_eq V c t) cover0

/-- … at (b, n): Σ_f x(b, f) · W(f, n). -/
theorem arrAt0_apply (c : Dev nD) (b : Fin 256) (n : Fin 1024) :
    (dat0 (F := Ideal) V c).arrAt 2 cfg0.N (ix2 b n) = matProd (V c main_arg0) (V c main_v1) b n :=
  congrFun (arrAt0_eq V c) (ix2 b n)

end

/-! ## The product with the host's matrix is the projection -/

/-- With the matrix the host prepares from T, the product's entry (b, 128·k + o) is M(b, o, k) = Σ_f x(b, f) · T(f, o, k). -/
theorem matProd_hostT (x : FVec Ideal S256x1024 .f32) (T : FVec Ideal S1024x128x8 .f32) (b : Fin 256) (k : Fin 8) (o : Fin 128) :
    matProd x (shapeCast S1024x1024 (transpose S1024x8x128 [0, 2, 1] T transposes_S1024x128x8_S1024x8x128_0_2_1)
        shapeCasts_S1024x8x128_S1024x1024) b ⟨k.val * 128 + o.val, by omega⟩
      = Cert.Minibatch.proj x T b o k := by
  unfold matProd Cert.Minibatch.proj
  exact Finset.sum_congr rfl fun f _ => by rw [hostT_apply]

end Cert.KernelIdeal.Hand

end
-- ==== Proof.KI.Entry1.lean ====
/-
  What the second region finds, on the extended reals.

  Before the first region the host exchanges the last two axes of the tensor T and flattens them into the
  1024 × 1024 matrix W, W(f, 128·k + o) = T(f, o, k); the first region leaves the product x · W in its result array
  and writes nothing else; the host then folds the product to 256 × 8 × 128.  So at the second region's entry the
  folded array holds, at (b, k, o), the product's entry (b, 128·k + o) = Σ_f x(b, f) · T(f, o, k): the projection
  M(b, o, k).  The samples' array is as launched: no segment writes it.
-/
import proofs.«106793_j66391604461943_2_alg».proof.Proof.KI.Run
import proofs.«106793_j66391604461943_2_alg».proof.Proof.KI.Val0
import proofs.«106793_j66391604461943_2_alg».proof.Proof.Spec
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat arrRef)

variable (m : (ℓ : Loc nD τ sig) → Buf (Elt Ideal) ℓ) (ρ : Dev nD → PrngReg)

/-! ## The samples' array is never written -/

/-- At the first region's entry the samples are as launched: the host stretch before it writes only the exchanged
    tensor and the matrix. -/
theorem E1_main_arg0 (c : Dev nD) : E1 m ρ c main_arg0 = m ((c : Thread nD τ).loc main_arg0) :=
  calc E1 m ρ c main_arg0
    _ = B0 m ρ c (Proc.devRef .tc main_arg0) := host0_keeps c _ main_arg0 (by decide) (by decide)
    _ = m ((c : Thread nD τ).loc main_arg0) := rfl

/-- At the second region's entry too: the first region only reads them, the fold writes only the folded array. -/
theorem E3_main_arg0 (c : Dev nD) : E3 m ρ c main_arg0 = m ((c : Thread nD τ).loc main_arg0) :=
  calc E3 m ρ c main_arg0
    _ = B2 m ρ c (Proc.devRef .tc main_arg0) := host1_keeps c _ main_arg0 (by decide)
    _ = B1 m ρ c (Proc.devRef .tc main_arg0) :=
      (B2_arr m ρ c 0).trans (((dat0 (E1 m ρ) c).arrAt_in 0 rfl _).trans (A_eq0 (E1 m ρ) c 0))
    _ = B0 m ρ c (Proc.devRef .tc main_arg0) := host0_keeps c _ main_arg0 (by decide) (by decide)
    _ = m ((c : Thread nD τ).loc main_arg0) := rfl

/-! ## The host's two stretches read back -/

/-- The matrix the first region multiplies by: the launched tensor with its last two axes exchanged, flattened. -/
theorem E1_main_v1 (c : Dev nD) :
    E1 m ρ c main_v1 = shapeCast S1024x1024 (transpose S1024x8x128 [0, 2, 1] (m ((c : Thread nD τ).loc main_arg1))
      transposes_S1024x128x8_S1024x8x128_0_2_1) shapeCasts_S1024x8x128_S1024x1024 := by
  show StableHlo.after hostOps0 (B0 m ρ c) (Proc.devRef .tc main_v1) = _
  after_results
  rfl

/-- The folded array at the second region's entry: the first region's result array, folded. -/
theorem E3_main_v3 (c : Dev nD) :
    E3 m ρ c main_v3 = shapeCast S256x8x128 (E2 m ρ c main_v2) shapeCasts_S256x1024_S256x8x128 := by
  show StableHlo.after hostOps1 (B2 m ρ c) (Proc.devRef .tc main_v3) = _
  after_results
  rfl

/-! ## The folded array holds the projection -/

/-- At the second region's entry the folded array's entry (b, k, o) is M(b, o, k) = Σ_f x(b, f) · T(f, o, k) of the
    launched samples and tensor. -/
theorem E3_main_v3_apply (c : Dev nD) (b : Fin 256) (k : Fin 8) (o : Fin 128) :
    E3 m ρ c main_v3 (ix3 b k o)
      = Cert.Minibatch.proj (m ((c : Thread nD τ).loc main_arg0)) (m ((c : Thread nD τ).loc main_arg1)) b o k := by
  refine (congrFun (E3_main_v3 m ρ c) (ix3 b k o)).trans ?_
  refine (reshapeM_apply (E2 m ρ c main_v2) b k o).trans ?_
  refine (congrFun (B2_arr m ρ c 2) (ix2 b ⟨k.val * 128 + o.val, by omega⟩)).trans ?_
  refine (arrAt0_apply (E1 m ρ) c b ⟨k.val * 128 + o.val, by omega⟩).trans ?_
  rw [E1_main_arg0, E1_main_v1]
  exact matProd_hostT _ _ b k o

end Cert.KernelIdeal.Hand

end
-- ==== Proof.KI.Final.lean ====
/-
  The kernel program's result array is the specification.  Only the points with j = 1 write the output window back;
  what the point (i, 1) writes back is block i of rows of the specification, and these two blocks cover the
  256 × 1152 result array, so after the run the array IS the specification of the two argument arrays.
-/
import proofs.«106793_j66391604461943_2_alg».proof.Proof.KI.Run
import proofs.«106793_j66391604461943_2_alg».proof.Proof.KI.OutOdd
import proofs.«106793_j66391604461943_2_alg».proof.Proof.KI.Entry1
import proofs.«106793_j66391604461943_2_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (arrRef)

variable (m : (ℓ : Loc nD τ sig) → Buf (Elt Ideal) ℓ) (ρ : Dev nD → PrngReg)

/-- The output block of a point with j = 1, at the run's own entry contents of the second region. -/
theorem out_odd (c : Dev nD) (t : Fin cfg1.N) (h0 : ¬t.val % 2 = 0) (a : Fin 128) (q : Fin 1152) :
    (outsAt1 (E3 m ρ) c t.val t.isLt).1 (ix2 a q)
      = Cert.Minibatch.result (m ((c : Thread nD τ).loc main_arg0)) (m ((c : Thread nD τ).loc main_arg1))
          (ix2 ⟨128 * (t.val / 2) + a.val, by have := lt_of_lt_of_eq t.isLt N_1; omega⟩ q) :=
  out_odd_of (E3 m ρ) c (m ((c : Thread nD τ).loc main_arg0)) (m ((c : Thread nD τ).loc main_arg1))
    (fun b k o => E3_main_v3_apply m ρ c b k o) (fun b f => by rw [E3_main_arg0]) t h0 a q

/-- The specification at the two argument arrays, as contents of the result buffer. -/
def Res (c : Dev nD) : Buf (Elt Ideal) ((c : Thread nD τ).loc main_v4) :=
  Cert.Minibatch.result (m ((c : Thread nD τ).loc main_arg0)) (m ((c : Thread nD τ).loc main_arg1))

/-- The output window's index map over the grid: the block of rows i = t / 2, the one block of columns. -/
theorem idx_facts3 : ∀ t : Fin cfg1.N, win1_3.index t (0 : Fin 2) = t.val / 2 ∧ win1_3.index t (1 : Fin 2) = 0 :=
  (by decide +kernel : ∀ t : Fin grid1.N, win1_3.index t (0 : Fin 2) = t.val / 2 ∧ win1_3.index t (1 : Fin 2) = 0)

/-- What a point that writes back (j = 1) writes is its block of the specification. -/
theorem flushed3_eq (c : Dev nD) (t : Fin cfg1.N) (hf : (cfg1.win 3).flush t = true) :
    (dat1 (E3 m ρ) c).flushed 3 t = ((cfg1.win 3).blk t).view.read (Elt Ideal) (Res m c) := by
  have h1 : t.val % 2 = 1 := (flush1_3 t).mp hf
  have hN : t.val < 4 := lt_of_lt_of_eq t.isLt N_1
  obtain ⟨e0, e1⟩ := idx_facts3 t
  show (cfg1.win 3).cut (grid1.coords t) ((dat1 (E3 m ρ) c).after 3 t) = _
  rw [after1_3]
  funext j
  obtain ⟨a, q, rfl⟩ : ∃ (a : Fin 128) (q : Fin 1152), j = ix2 a q := ⟨j 0, j 1, eq_ix2 j⟩
  show (outsAt1 (E3 m ρ) c t.val t.isLt).1 (ix2 a q) = Res m c (((cfg1.win 3).blk t).view.emb (ix2 a q))
  rw [out_odd m ρ c t (by omega) a q]
  unfold Res
  refine congrArg _ ?_
  funext d; apply Fin.ext
  match d with
  | ⟨0, _⟩ => show 128 * (t.val / 2) + a.val = win1_3.index t (0 : Fin 2) * 128 + 1 * a.val; omega
  | ⟨1, _⟩ => show q.val = win1_3.index t (1 : Fin 2) * 1152 + 1 * q.val; omega

/-- An index of the result array is in point `t`'s block iff each coordinate is in the block's range. -/
theorem mem_blk3 (t : Fin cfg1.N) (i : S256x1152.Idx) :
    i ∈ ((cfg1.win 3).blk t).view.set ↔ ∀ a : Fin 2, win1_3.index t a * S128x1152.size a ≤ (i a).val ∧ (i a).val < win1_3.index t a * S128x1152.size a + S128x1152.size a := by
  show i ∈ ((View.whole main_v4).slice (win1_3.rect t)).set ↔ _
  rw [View.set_slice_whole, Rect.mem_set_unit]
  exact Iff.rfl

/-- Every row p of the result lies in the block the point (p / 128, 1) writes back. -/
theorem cover3 (i : S256x1152.Idx) : ∃ t : Fin cfg1.N, (cfg1.win 3).flush t = true ∧ i ∈ ((cfg1.win 3).blk t).view.set := by
  have hi0 : (i 0).val < 256 := (i 0).isLt
  have hi1 : (i 1).val < 1152 := (i 1).isLt
  let t : Fin cfg1.N := ⟨2 * ((i 0).val / 128) + 1, lt_of_lt_of_eq (by omega : 2 * ((i 0).val / 128) + 1 < 4) N_1.symm⟩
  obtain ⟨e0, e1⟩ := idx_facts3 t
  have ht : t.val = 2 * ((i 0).val / 128) + 1 := rfl
  refine ⟨t, (flush1_3 t).mpr (by omega), ?_⟩
  rw [mem_blk3]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 1152 ≤ (i 1).val ∧ (i 1).val < win1_3.index t (1 : Fin 2) * 1152 + 1152; omega

/-- The result array after the run is the specification of the two argument arrays. -/
theorem res4_eq (c : Dev nD) : res4 m ρ c = Res m c :=
  (dat1 (E3 m ρ) c).arrAt_eq_of_cover 3 (Res m c) (fun t hf => flushed3_eq m ρ c t hf) (cover3)

/-- Every weakly fair execution of the idealized kernel program terminates with the result buffer at the specification
    of the two argument arrays, and the argument arrays as launched. -/
theorem run_spec : θ_run defs (onTc (τ := τ) (main (F := Ideal))) ⟨m, fun _ => 0, ρ⟩ (fun r => ∀ c : Dev nD,
      r.2.mem ((c.tc : Thread nD τ).loc main_v4) = Cert.Minibatch.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (res4_eq m ρ c), (h c).2⟩) (run m ρ)

end Cert.KernelIdeal.Hand

end
-- ==== Proof.RefSpec.lean ====
/-
  The reference program computes the specification.

  The reference is a chain of nineteen array operations.  Read index by index it is the specification's function:

  * the tensor `T` (1024 × 128 × 8) is flattened to 1024 × 1024, entry (f, n) being T(f, n / 8, n % 8); the
    product with `x` has entry (b, n) = Σ_f x(b, f) · T(f, n / 8, n % 8); folded back to 256 × 128 × 8 its entry
    (b, o, k) is the product's entry (b, 8·o + k), and (8·o + k) / 8 = o, (8·o + k) % 8 = k because k < 8: the
    projection M(b, o, k) = Σ_f x(b, f) · T(f, o, k);
  * the two broadcasts to 256 × 256 × 128 × 8 read M(j, o, k) and M(i, o, k) at (i, j, o, k); their difference, its
    absolute value max v (−v), the sum over k from the initial value 0, the negation, the exponential, the sum over j
    from the initial value 0, and the subtraction of the float 1.0 give at (i, o)
        (0 + Σ_j exp(−(0 + Σ_k |M(j, o, k) − M(i, o, k)|))) − 1,
    which is the similarity feature: 0 + s = s, and |u − v| = |v − u| on all extended reals;
  * the concatenation along axis 1 reads `x` at a column below 1024 and the features at a column from 1024 on,
    1024 less.

  No entry is assumed finite anywhere.
-/
import proofs.«106793_j66391604461943_2_alg».proof.Proof.Spec
import proofs.«106793_j66391604461943_2_alg».proof.Proof.Gen.ReferenceIdeal.Run
import proofs.«106793_j66391604461943_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The projection: the folded product at (b, o, k) is M(b, o, k) -/

/-- Term f of the product's entry (b, 8·o + k) reads `x` at (b, f): the folded index (b, o, k) sits at flat
    position (b · 128 + o) · 8 + k, whose row in 256 × 1024 is b. -/
theorem left_index (b : Fin 256) (o : Fin 128) (k : Fin 8) (f : Fin 1024) :
    lidx_main_v1 (idx_main_v2 (ix3 b o k)) f = ix2 b f := by
  funext a; refine Fin.ext ?_
  match a with
  | ⟨0, _⟩ => show ((b.val * 128 + o.val) * 8 + k.val) / 1024 = b.val; omega
  | ⟨1, _⟩ => rfl

/-- … and reads the flattened `T` at (f, 8·o + k), which is T(f, o, k): the flat position f · 1024 + 8·o + k splits
    into f, then (8·o + k) / 8 = o, then (8·o + k) % 8 = k. -/
theorem right_index (b : Fin 256) (o : Fin 128) (k : Fin 8) (f : Fin 1024) :
    idx_main_v0 (ridx_main_v1 (idx_main_v2 (ix3 b o k)) f) = ix3 f o k := by
  funext a; refine Fin.ext ?_
  match a with
  | ⟨0, _⟩ => show (f.val * 1024 + ((b.val * 128 + o.val) * 8 + k.val) % 1024) / 1024 = f.val; omega
  | ⟨1, _⟩ => show (f.val * 1024 + ((b.val * 128 + o.val) * 8 + k.val) % 1024) / 8 % 128 = o.val; omega
  | ⟨2, _⟩ => show (f.val * 1024 + ((b.val * 128 + o.val) * 8 + k.val) % 1024) % 8 = k.val; omega

/-- The folded product is the projection M. -/
theorem folded_eq_proj (x : FVec Ideal S256x1024 .f32) (T : FVec Ideal S1024x128x8 .f32) (b : Fin 256) (o : Fin 128) (k : Fin 8) :
    val_main_v2 (F := Ideal) x T (ix3 b o k) = Cert.Minibatch.proj x T b o k := by
  rw [val_main_v2_apply, val_main_v1_apply]
  unfold Cert.Minibatch.proj
  refine Finset.sum_congr rfl fun f _ => ?_
  rw [val_main_v0_apply, left_index, right_index]

/-! ## The features: the difference of the sums and 1.0 at (i, o) is the similarity feature -/

/-- At (i, j, o, k) the first broadcast reads the projection of sample j … -/
theorem other_index (i j : Fin 256) (o : Fin 128) (k : Fin 8) :
    idx_main_v3 (idx_main_v5 (idx_main_v9 (idx_main_v12 (ix2 i o) j) k)) = ix3 j o k := by
  funext a; refine Fin.ext ?_
  match a with
  | ⟨0, _⟩ => rfl
  | ⟨1, _⟩ => rfl
  | ⟨2, _⟩ => rfl

/-- … and the second that of sample i. -/
theorem own_index (i j : Fin 256) (o : Fin 128) (k : Fin 8) :
    idx_main_v4 (idx_main_v6 (idx_main_v9 (idx_main_v12 (ix2 i o) j) k)) = ix3 i o k := by
  funext a; refine Fin.ext ?_
  match a with
  | ⟨0, _⟩ => rfl
  | ⟨1, _⟩ => rfl
  | ⟨2, _⟩ => rfl

/-- One term of the inner sum: |M(j, o, k) − M(i, o, k)|, which is |M(i, o, k) − M(j, o, k)|. -/
theorem abs_term (x : FVec Ideal S256x1024 .f32) (T : FVec Ideal S1024x128x8 .f32) (i j : Fin 256) (o : Fin 128) (k : Fin 8) :
    val_main_v8 (F := Ideal) x T (idx_main_v9 (idx_main_v12 (ix2 i o) j) k)
      = Cert.Minibatch.absDiff (Cert.Minibatch.proj x T i o k) (Cert.Minibatch.proj x T j o k) := by
  rw [val_main_v8_apply, val_main_v7_apply, val_main_v5_apply, val_main_v3_apply, val_main_v6_apply, val_main_v4_apply,
    other_index, own_index, folded_eq_proj, folded_eq_proj, Cert.Minibatch.absDiff_comm]
  rfl

/-- One term of the outer sum: exp(−d(i, j, o)); the inner sum's initial value is 0. -/
theorem exp_term (x : FVec Ideal S256x1024 .f32) (T : FVec Ideal S1024x128x8 .f32) (i j : Fin 256) (o : Fin 128) :
    val_main_v11 (F := Ideal) x T (idx_main_v12 (ix2 i o) j) = Ideal.exp (-(Cert.Minibatch.dist x T i j o)) := by
  rw [val_main_v11_apply, val_main_v10_apply, val_main_v9_apply, val_main_cst_apply]
  unfold Cert.Minibatch.dist
  simp only [Ideal.hostUnary_exp_def, Ideal.hostNegf_def, Ideal.negf_def, Ideal.ofBits_def, Ideal.ofBits_zero_f32, zero_add,
    abs_term]

/-- The features. -/
theorem features_eq_feat (x : FVec Ideal S256x1024 .f32) (T : FVec Ideal S1024x128x8 .f32) (i : Fin 256) (o : Fin 128) :
    val_main_v14 (F := Ideal) x T (ix2 i o) = Cert.Minibatch.feat x T i o := by
  rw [val_main_v14_apply, val_main_v12_apply, val_main_v13_apply, val_main_cst_1_apply, val_main_cst_0_apply]
  unfold Cert.Minibatch.feat
  simp only [Ideal.subf_def, Ideal.ofBits_def, Ideal.ofBits_zero_f32, zero_add, exp_term]

/-! ## The whole result -/

/-- The reference run's result term is the specification's function of the two argument arrays. -/
theorem result_eq (x : FVec Ideal S256x1024 .f32) (T : FVec Ideal S1024x128x8 .f32) :
    concatenate S256x1152 1 [⟨S256x1024, x⟩, ⟨S256x128, (subf (Host.reduceAdd (Host.exp (Host.negf (Host.reduceAdd (Host.absf (subf (broadcastInDim S256x256x128x8 ![0, 1, 2, 3] bcast_S1x256x128x8_S256x256x128x8_0_1_2_3 (broadcastInDim S1x256x128x8 ![1, 2, 3] bcast_S256x128x8_S1x256x128x8_1_2_3 (shapeCast _ (Host.dotGeneral dot_S256x1024_S1024x1024_S256x1024_1_0_0_1_n_n none x (shapeCast _ T shapeCasts_S1024x128x8_S1024x1024)) shapeCasts_S256x1024_S256x128x8))) (broadcastInDim S256x256x128x8 ![0, 1, 2, 3] bcast_S256x1x128x8_S256x256x128x8_0_1_2_3 (broadcastInDim S256x1x128x8 ![0, 2, 3] bcast_S256x128x8_S256x1x128x8_0_2_3 (shapeCast _ (Host.dotGeneral dot_S256x1024_S1024x1024_S256x1024_1_0_0_1_n_n none x (shapeCast _ T shapeCasts_S1024x128x8_S1024x1024)) shapeCasts_S256x1024_S256x128x8))))) (constant (F := Ideal) S_ .f32 0x00000000#32) reducesTo_S256x256x128x8_S256x256x128_d3 h_S_))) (constant (F := Ideal) S_ .f32 0x00000000#32) reducesTo_S256x256x128_S256x128_d1 h_S_) (broadcastInDim S256x128 ![] bcast_S_S256x128 (constant (F := Ideal) S_ .f32 0x3F800000#32)))⟩] concatenates_S256x1024_S256x128_S256x1152_d1
    = Cert.Minibatch.result x T := by
  refine (val_main_v15_eq (F := Ideal) x T).trans ?_
  funext q
  unfold val_main_v15 Cert.Minibatch.result
  by_cases h : (q 1).val < 1024
  · rw [dif_pos h]
    exact concatenate_pair_apply_left 1 x _ concatenates_S256x1024_S256x128_S256x1152_d1 q rfl _ (fun b => by
      match b with
      | ⟨0, _⟩ => rfl
      | ⟨1, _⟩ => rfl)
  · rw [dif_neg h]
    have h2 : (q 1).val - 1024 < 128 := by have := idx2_lt1 q; omega
    refine (concatenate_pair_apply_right 1 x _ concatenates_S256x1024_S256x128_S256x1152_d1 q rfl rfl
      (ix2 (q 0) ⟨(q 1).val - 1024, h2⟩)
      (fun b hb => by
        match b with
        | ⟨0, _⟩ => rfl
        | ⟨1, _⟩ => exact absurd rfl hb)
      (by show (q 1).val - 1024 + 1024 = (q 1).val; omega)).trans ?_
    exact features_eq_feat x T _ _

/-- Every weakly fair execution of the reference ends with its result buffer at the specification's function of the
    two arguments' launch contents, the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = Cert.Minibatch.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq _ _), (h c).2⟩)
    (Cert.ReferenceIdeal.Value.run (F := Ideal) m ρ)

end Cert.ReferenceIdeal.RefValue

end
-- ==== Proof.lean ====
/-
  Minibatch discrimination: a Pallas kernel program (the projection M = x·T as one matrix product on the matrix
  unit; then, on a 2×2 grid of 128-sample blocks, the pairwise L1 distances of the projected samples, their
  exponentials summed over the key samples into an accumulator carried across the key blocks, minus one, written
  beside the samples themselves) against the plain array program computing the same features.

  The three frames: each program terminates on every weakly fair execution, faults nowhere and leaves its two
  argument arrays as launched — the two kernel programs by following every unscoped buffer through @main's four
  segments (two stretches of host operations, two kernel regions; the second region reads one array through two
  windows, its full share dealt in two halves), the reference by its run as a list of host operations.

  The value claim, on the extended reals: both programs end with the result array at ONE function of the two
  arguments, `Cert.Minibatch.result` — row i is sample i followed by the 128 features
  Σ_j exp(−Σ_k |M(i,o,k) − M(j,o,k)|) − 1.  The kernel adds the 256 terms in two blocks of eight 16-row slices and
  spells the negation as 0 − v and the difference with the samples in the other order; sums regroup freely,
  0 − v = −v and |u − v| = |v − u| hold for all extended reals, so the precondition is never opened.
  The ideal pass rewrote nothing, so the kernel's idealization is its own text read at the ideal instance.
-/
import proofs.«106793_j66391604461943_2_alg».proof.Defs
import proofs.«106793_j66391604461943_2_alg».proof.Proof.K.Run
import proofs.«106793_j66391604461943_2_alg».proof.Proof.KI.Final
import proofs.«106793_j66391604461943_2_alg».proof.Proof.RefSpec
import proofs.«106793_j66391604461943_2_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ =>
  (θ_run Cert.Kernel.defs _ _).mono (fun _ h c => (h c).2) (Cert.Kernel.Hand.run (F := Bits) m ρ)

/-- So does its idealization. -/
theorem frame_ki : Cert.frame_KernelIdeal := fun m ρ _ =>
  (θ_run Cert.KernelIdeal.defs _ _).mono (fun _ h c => (h c).2) (Cert.KernelIdeal.Hand.run (F := Ideal) m ρ)

/-- And the reference. -/
theorem frame_ri : Cert.frame_ReferenceIdeal := fun m ρ _ =>
  (θ_run Cert.ReferenceIdeal.defs _ _).mono (fun _ h c => (h c).2) (Cert.ReferenceIdeal.RefValue.run_spec m ρ)

/-- The ideal pass rewrote no operation. -/
theorem preserves : Cert.preserves_Kernel_KernelIdeal := trivial

/-- From memories agreeing on the arguments both idealized programs end with the result array at the specification
    of the arguments. -/
theorem algebraic : Cert.algebraic_KernelIdeal_ReferenceIdeal := by
  intro m ρ m' ρ' _ hagree
  refine ⟨fun c => Cert.Minibatch.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_spec m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
